-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.sign_bit.Statement Cert.KernelIdeal.S1x2048 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x128x128 : Shape := ⟨4, ![64, 2, 128, 128]⟩
abbrev S64x2048 : Shape := ⟨2, ![64, 2048]⟩
abbrev S2x2048 : Shape := ⟨2, ![2, 2048]⟩
abbrev S16384x2048 : Shape := ⟨2, ![16384, 2048]⟩
abbrev S_ : Shape := ⟨0, ![]⟩

class Facts : Prop where
  bcast_S_S64x2x128x128 : S_.BroadcastsInDim S64x2x128x128 (![] : Fin 0 → Fin S64x2x128x128.rank)
  reducesTo_S64x2x128x128_S_d0_1_2_3 : S64x2x128x128.ReducesTo [0, 1, 2, 3] S_
  h_S_ : 0 < S_.numel
  bcast_S_S64x2048 : S_.BroadcastsInDim S64x2048 (![] : Fin 0 → Fin S64x2048.rank)
  reducesTo_S64x2048_S_d0_1 : S64x2048.ReducesTo [0, 1] S_
  bcast_S_S2x2048 : S_.BroadcastsInDim S2x2048 (![] : Fin 0 → Fin S2x2048.rank)
  reducesTo_S2x2048_S_d0_1 : S2x2048.ReducesTo [0, 1] S_
  bcast_S_S16384x2048 : S_.BroadcastsInDim S16384x2048 (![] : Fin 0 → Fin S16384x2048.rank)
  reducesTo_S16384x2048_S_d0_1 : S16384x2048.ReducesTo [0, 1] S_

variable [Facts]

def fn_part1 {F : FTy → Type} [FloatOps F] (main_v13 : IVec S_ 1) (main_v16 : IVec S16384x2048 1) : IVec S_ 1 :=
  let main_c_5 : IVec S_ 1 := constantI S_ 1 1#1
  let main_v17 : IVec S_ 1 := (fun x v => Host.reduce IntOp.andi x v reducesTo_S16384x2048_S_d0_1 h_S_) main_v16 main_c_5
  let main_v18 : IVec S_ 1 := andi main_v13 main_v17
  main_v18

def fn {F : FTy → Type} [FloatOps F] (main_arg0 : FVec F S64x2x128x128 .f32) (main_arg1 : FVec F S64x2048 .f32) (main_arg2 : FVec F S2x2048 .f32) (main_arg3 : FVec F S16384x2048 .f32) : IVec S_ 1 :=
  let main_v0 : FVec F S64x2x128x128 .f32 := Host.absf main_arg0
  let main_cst : FVec F S_ .f32 := constant S_ .f32 0x7F800000#32
  let main_v1 : FVec F S64x2x128x128 .f32 := broadcastInDim S64x2x128x128 ![] bcast_S_S64x2x128x128 main_cst
  let main_v2 : IVec S64x2x128x128 1 := cmpf .olt main_v0 main_v1
  let main_c : IVec S_ 1 := constantI S_ 1 1#1
  let main_v3 : IVec S_ 1 := (fun x v => Host.reduce IntOp.andi x v reducesTo_S64x2x128x128_S_d0_1_2_3 h_S_) main_v2 main_c
  let main_v4 : FVec F S64x2048 .f32 := Host.absf main_arg1
  let main_cst_0 : FVec F S_ .f32 := constant S_ .f32 0x7F800000#32
  let main_v5 : FVec F S64x2048 .f32 := broadcastInDim S64x2048 ![] bcast_S_S64x2048 main_cst_0
  let main_v6 : IVec S64x2048 1 := cmpf .olt main_v4 main_v5
  let main_c_1 : IVec S_ 1 := constantI S_ 1 1#1
  let main_v7 : IVec S_ 1 := (fun x v => Host.reduce IntOp.andi x v reducesTo_S64x2048_S_d0_1 h_S_) main_v6 main_c_1
  let main_v8 : IVec S_ 1 := andi main_v3 main_v7
  let main_v9 : FVec F S2x2048 .f32 := Host.absf main_arg2
  let main_cst_2 : FVec F S_ .f32 := constant S_ .f32 0x7F800000#32
  let main_v10 : FVec F S2x2048 .f32 := broadcastInDim S2x2048 ![] bcast_S_S2x2048 main_cst_2
  let main_v11 : IVec S2x2048 1 := cmpf .olt main_v9 main_v10
  let main_c_3 : IVec S_ 1 := constantI S_ 1 1#1
  let main_v12 : IVec S_ 1 := (fun x v => Host.reduce IntOp.andi x v reducesTo_S2x2048_S_d0_1 h_S_) main_v11 main_c_3
  let main_v13 : IVec S_ 1 := andi main_v8 main_v12
  let main_v14 : FVec F S16384x2048 .f32 := Host.absf main_arg3
  let main_cst_4 : FVec F S_ .f32 := constant S_ .f32 0x7F800000#32
  let main_v15 : FVec F S16384x2048 .f32 := broadcastInDim S16384x2048 ![] bcast_S_S16384x2048 main_cst_4
  let main_v16 : IVec S16384x2048 1 := cmpf .olt main_v14 main_v15
  fn_part1 (F := F) main_v13 main_v16
-- ==== Kernel.lean ====
abbrev S64x2x128x128 : Shape := ⟨4, ![64, 2, 128, 128]⟩
abbrev S64x2048 : Shape := ⟨2, ![64, 2048]⟩
abbrev S2x2048 : Shape := ⟨2, ![2, 2048]⟩
abbrev S16384x2048 : Shape := ⟨2, ![16384, 2048]⟩
abbrev S128x128x128 : Shape := ⟨3, ![128, 128, 128]⟩
abbrev S1x2048 : Shape := ⟨2, ![1, 2048]⟩
abbrev S128x8x128 : Shape := ⟨3, ![128, 8, 128]⟩
abbrev S1024x2048 : Shape := ⟨2, ![1024, 2048]⟩
abbrev S128x2048 : Shape := ⟨2, ![128, 2048]⟩
abbrev S128x64 : Shape := ⟨2, ![128, 64]⟩
abbrev S128x1024 : Shape := ⟨2, ![128, 1024]⟩
abbrev S1024x1024 : Shape := ⟨2, ![1024, 1024]⟩
abbrev S1x1024 : Shape := ⟨2, ![1, 1024]⟩
abbrev S1024 : Shape := ⟨1, ![1024]⟩
abbrev S2048 : Shape := ⟨1, ![2048]⟩

abbrev nBuf : Space → Nat
  | .hbm => 7
  | .vmem => 9
  | .smem => 0
  | _ => 0

abbrev bufTy : (tb : Table) → Fin (tcTables nBuf tb) → BufTy
  | .hbm, ⟨0, _⟩ => ⟨S64x2x128x128, .f32⟩
  | .hbm, ⟨1, _⟩ => ⟨S64x2048, .f32⟩
  | .hbm, ⟨2, _⟩ => ⟨S2x2048, .f32⟩
  | .hbm, ⟨3, _⟩ => ⟨S16384x2048, .f32⟩
  | .hbm, ⟨4, _⟩ => ⟨S128x128x128, .f32⟩
  | .hbm, ⟨5, _⟩ => ⟨S1x2048, .f32⟩
  | .hbm, ⟨6, _⟩ => ⟨S2048, .f32⟩
  | .local _ .vmem, ⟨0, _⟩ => ⟨S128x8x128, .f32⟩
  | .local _ .vmem, ⟨1, _⟩ => ⟨S128x8x128, .f32⟩
  | .local _ .vmem, ⟨2, _⟩ => ⟨S1024x2048, .f32⟩
  | .local _ .vmem, ⟨3, _⟩ => ⟨S1024x2048, .f32⟩
  | .local _ .vmem, ⟨4, _⟩ => ⟨S64x2048, .f32⟩
  | .local _ .vmem, ⟨5, _⟩ => ⟨S2x2048, .f32⟩
  | .local _ .vmem, ⟨6, _⟩ => ⟨S1x2048, .f32⟩
  | .local _ .vmem, ⟨7, _⟩ => ⟨S128x2048, .f32⟩
  | .local _ .vmem, ⟨8, _⟩ => ⟨S1x2048, .f32⟩
  | _, _ => ⟨S64x2x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [BitOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v28 : BitVec 1 := Scalar.cmpi .eq arg0 c15_i32
  let v29 : BitVec 32 := Scalar.extui v28
  let c0_i32_21 : BitVec 32 := 0#32
  let v30 : BitVec 1 := Scalar.cmpi .ne v29 c0_i32_21
  v30

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

class Facts₀ : Prop where
  shapeCasts_S64x2x128x128_S128x128x128 : S64x2x128x128.ShapeCasts S128x128x128
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  iota_S128x2048_d0_w32 : S128x2048.Iotas .tc 32 [0]
  inb_S2x2048_S2x2048_0_0 : ∀ a, (![0, 0] : Fin 2 → Nat) a + S2x2048.size a ≤ S2x2048.size a
  h_S2x2048 : 0 < S2x2048.numel
  slices_S2x2048_o0_0_S1x2048 : S2x2048.Slices ![0, 0] S1x2048
  slices_S2x2048_o1_0_S1x2048 : S2x2048.Slices ![1, 0] S1x2048
  broadcasts_S1x2048_S128x2048 : S1x2048.Broadcasts S128x2048
  iota_S128x64_d0_w32 : S128x64.Iotas .tc 32 [0]
  iota_S128x64_d1_w32 : S128x64.Iotas .tc 32 [1]
  natLt_1_32 : 1 < 32
  inb_S64x2048_S64x2048_0_0 : ∀ a, (![0, 0] : Fin 2 → Nat) a + S64x2048.size a ≤ S64x2048.size a
  h_S64x2048 : 0 < S64x2048.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x8x128_S128x8x128_0_0_0 : ∀ a, (![0, 0, 0] : Fin 3 → Nat) a + S128x8x128.size a ≤ S128x8x128.size a
  h_S128x8x128 : 0 < S128x8x128.numel
  shapeCasts_S128x8x128_S128x8x128 : S128x8x128.ShapeCasts S128x8x128
  shapeCasts_S128x8x128_S128x1024 : S128x8x128.ShapeCasts S128x1024
  inb_S128x2048_S128x1024_0_0 : ∀ a, (![0, 0] : Fin 2 → Nat) a + S128x1024.size a ≤ S128x2048.size a
  h_S128x1024 : 0 < S128x1024.numel
  inb_S1x2048_S1x1024_0_0 : ∀ a, (![0, 0] : Fin 2 → Nat) a + S1x1024.size a ≤ S1x2048.size a
  h_S1x1024 : 0 < S1x1024.numel
  inb_S1024x2048_S1024x1024_0_0 : ∀ a, (![0, 0] : Fin 2 → Nat) a + S1024x1024.size a ≤ S1024x2048.size a
  h_S1024x1024 : 0 < S1024x1024.numel
  reduces_S1024x1024_S1024 : S1024x1024.Reduces [0] S1024
  shapeCasts_S1024_S1x1024 : S1024.ShapeCasts S1x1024
  shapeCasts_S1x1024_S1x1024 : S1x1024.ShapeCasts S1x1024
  inb_S128x2048_S128x1024_0_1024 : ∀ a, (![0, 1024] : Fin 2 → Nat) a + S128x1024.size a ≤ S128x2048.size a
  inb_S1x2048_S1x1024_0_1024 : ∀ a, (![0, 1024] : Fin 2 → Nat) a + S1x1024.size a ≤ S1x2048.size a
  inb_S1024x2048_S1024x1024_0_1024 : ∀ a, (![0, 1024] : Fin 2 → Nat) a + S1024x1024.size a ≤ S1024x2048.size a
  shapeCasts_S1x2048_S2048 : S1x2048.ShapeCasts S2048
  dot_S128x64_S64x2048_S128x2048_1_0_0_1_n_n_wf : DotDims.WF S128x64 S64x2048 S128x2048 [1] [0] [0] [1] [] []
  dot_S128x1024_S128x1024_S1024x1024_0_0_1_1_n_n_wf : DotDims.WF S128x1024 S128x1024 S1024x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x128.size a ≤ S128x128x128.size a
  hwx0_0 : ∀ i : grid0.Coords, EltTy.bits .f32 = 32 ∨ (Rect.block (s := S128x128x128) S128x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S16384x2048.size a
  hwx0_1 : ∀ i : grid0.Coords, EltTy.bits .f32 = 32 ∨ (Rect.block (s := S16384x2048) S1024x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2048.size a ≤ S64x2048.size a
  hwx0_2 : ∀ i : grid0.Coords, EltTy.bits .f32 = 32 ∨ (Rect.block (s := S64x2048) S64x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2048.size a ≤ S2x2048.size a
  hwx0_3 : ∀ i : grid0.Coords, EltTy.bits .f32 = 32 ∨ (Rect.block (s := S2x2048) S2x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)

variable [Facts₀]

def dot_S128x64_S64x2048_S128x2048_1_0_0_1_n_n : DotDims S128x64 S64x2048 S128x2048 where
  lhsContracting := [1]
  rhsContracting := [0]
  lhsNonContracting := [0]
  rhsNonContracting := [1]
  lhsBatch := []
  rhsBatch := []
  wf := dot_S128x64_S64x2048_S128x2048_1_0_0_1_n_n_wf
def dot_S128x1024_S128x1024_S1024x1024_0_0_1_1_n_n : DotDims S128x1024 S128x1024 S1024x1024 where
  lhsContracting := [0]
  rhsContracting := [0]
  lhsNonContracting := [1]
  rhsNonContracting := [1]
  lhsBatch := []
  rhsBatch := []
  wf := dot_S128x1024_S128x1024_S1024x1024_0_0_1_1_n_n_wf

abbrev win0_0 : Pipeline.Window sig grid0 :=
  Pipeline.Window.ofSpec (Memref.whole main_v0) S128x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x2048.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S64x2x128x128 : Shape := ⟨4, ![64, 2, 128, 128]⟩
abbrev S64x2048 : Shape := ⟨2, ![64, 2048]⟩
abbrev S2x2048 : Shape := ⟨2, ![2, 2048]⟩
abbrev S16384x2048 : Shape := ⟨2, ![16384, 2048]⟩
abbrev S64 : Shape := ⟨1, ![64]⟩
abbrev S_ : Shape := ⟨0, ![]⟩
abbrev S64x1 : Shape := ⟨2, ![64, 1]⟩
abbrev S1 : Shape := ⟨1, ![1]⟩
abbrev S1x1 : Shape := ⟨2, ![1, 1]⟩
abbrev S64x2x16384 : Shape := ⟨3, ![64, 2, 16384]⟩
abbrev S64x2x2048 : Shape := ⟨3, ![64, 2, 2048]⟩
abbrev S1x2x2048 : Shape := ⟨3, ![1, 2, 2048]⟩
abbrev S64x1x2048 : Shape := ⟨3, ![64, 1, 2048]⟩
abbrev S2048 : Shape := ⟨1, ![2048]⟩

abbrev nBuf : Space → Nat
  | .hbm => 42
  | .vmem => 0
  | .smem => 0
  | _ => 0

abbrev bufTy : (tb : Table) → Fin (tcTables nBuf tb) → BufTy
  | .hbm, ⟨0, _⟩ => ⟨S64x2x128x128, .f32⟩
  | .hbm, ⟨1, _⟩ => ⟨S64x2048, .f32⟩
  | .hbm, ⟨2, _⟩ => ⟨S2x2048, .f32⟩
  | .hbm, ⟨3, _⟩ => ⟨S16384x2048, .f32⟩
  | .hbm, ⟨4, _⟩ => ⟨S64, .i32⟩
  | .hbm, ⟨5, _⟩ => ⟨S_, .i32⟩
  | .hbm, ⟨6, _⟩ => ⟨S64, .i32⟩
  | .hbm, ⟨7, _⟩ => ⟨S64, .i32⟩
  | .hbm, ⟨8, _⟩ => ⟨S_, .i32⟩
  | .hbm, ⟨9, _⟩ => ⟨S64, .i32⟩
  | .hbm, ⟨10, _⟩ => ⟨S64, .i1⟩
  | .hbm, ⟨11, _⟩ => ⟨S_, .i32⟩
  | .hbm, ⟨12, _⟩ => ⟨S64, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S1, .i32⟩
  | .hbm, ⟨17, _⟩ => ⟨S_, .i32⟩
  | .hbm, ⟨18, _⟩ => ⟨S64x1, .i32⟩
  | .hbm, ⟨19, _⟩ => ⟨S64x1, .i1⟩
  | .hbm, ⟨20, _⟩ => ⟨S1x1, .i32⟩
  | .hbm, ⟨21, _⟩ => ⟨S64x1, .i32⟩
  | .hbm, ⟨22, _⟩ => ⟨S64x1, .i1⟩
  | .hbm, ⟨23, _⟩ => ⟨S64x1, .i1⟩
  | .hbm, ⟨24, _⟩ => ⟨S_, .i1⟩
  | .hbm, ⟨25, _⟩ => ⟨S64, .i1⟩
  | .hbm, ⟨26, _⟩ => ⟨S64x2048, .f32⟩
  | .hbm, ⟨27, _⟩ => ⟨S64x2048, .i1⟩
  | .hbm, ⟨28, _⟩ => ⟨S_, .f32⟩
  | .hbm, ⟨29, _⟩ => ⟨S64x2048, .f32⟩
  | .hbm, ⟨30, _⟩ => ⟨S64x2048, .f32⟩
  | .hbm, ⟨31, _⟩ => ⟨S64x2x16384, .f32⟩
  | .hbm, ⟨32, _⟩ => ⟨S64x2x2048, .f32⟩
  | .hbm, ⟨33, _⟩ => ⟨S1x2x2048, .f32⟩
  | .hbm, ⟨34, _⟩ => ⟨S64x2x2048, .f32⟩
  | .hbm, ⟨35, _⟩ => ⟨S64x2x2048, .f32⟩
  | .hbm, ⟨36, _⟩ => ⟨S64x1x2048, .f32⟩
  | .hbm, ⟨37, _⟩ => ⟨S64x2x2048, .f32⟩
  | .hbm, ⟨38, _⟩ => ⟨S64x2x2048, .f32⟩
  | .hbm, ⟨39, _⟩ => ⟨S_, .f32⟩
  | .hbm, ⟨40, _⟩ => ⟨S2048, .f32⟩
  | .hbm, ⟨41, _⟩ => ⟨S2048, .f32⟩
  | _, _ => ⟨S64x2x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_cst : Ref sig .tc := ⟨.hbm, 39, rfl⟩
abbrev main_v12 : Ref sig .tc := ⟨.hbm, 40, rfl⟩
abbrev main_v13 : Ref sig .tc := ⟨.hbm, 41, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  reducesTo_S64x1_S64_d1 : S64x1.ReducesTo [1] S64
  h_S_ : 0 < S_.numel
  bcast_S64_S64x2048_0 : S64.BroadcastsInDim S64x2048 (![0] : Fin 1 → Fin S64x2048.rank)
  bcast_S_S64x2048 : S_.BroadcastsInDim S64x2048 (![] : Fin 0 → Fin S64x2048.rank)
  shapeCasts_S64x2x128x128_S64x2x16384 : S64x2x128x128.ShapeCasts S64x2x16384
  bcast_S2x2048_S1x2x2048_1_2 : S2x2048.BroadcastsInDim S1x2x2048 (![1, 2] : Fin 2 → Fin S1x2x2048.rank)
  bcast_S1x2x2048_S64x2x2048_0_1_2 : S1x2x2048.BroadcastsInDim S64x2x2048 (![0, 1, 2] : Fin 3 → Fin S64x2x2048.rank)
  bcast_S64x2048_S64x1x2048_0_2 : S64x2048.BroadcastsInDim S64x1x2048 (![0, 2] : Fin 2 → Fin S64x1x2048.rank)
  bcast_S64x1x2048_S64x2x2048_0_1_2 : S64x1x2048.BroadcastsInDim S64x2x2048 (![0, 1, 2] : Fin 3 → Fin S64x2x2048.rank)
  reducesTo_S64x2x2048_S2048_d0_1 : S64x2x2048.ReducesTo [0, 1] S2048
  gather_S64x2048_S64x1_S64x2048_1_0_n_n_0_1_12048_wf : GatherDims.WF S64x2048 S64x1 S64x2048 [1] [0] [] [0] [] 1 ![1, 2048]
  dot_S64x2x16384_S16384x2048_S64x2x2048_2_0_01_1_n_n_wf : DotDims.WF S64x2x16384 S16384x2048 S64x2x2048 [2] [0] [0, 1] [1] [] []

variable [Facts₀]

def gather_S64x2048_S64x1_S64x2048_1_0_n_n_0_1_12048 : GatherDims S64x2048 S64x1 S64x2048 where
  offsetDims := [1]
  collapsedSliceDims := [0]
  operandBatchingDims := []
  startIndicesBatchingDims := []
  startIndexMap := [0]
  indexVectorDim := 1
  sliceSizes := ![1, 2048]
  wf := gather_S64x2048_S64x1_S64x2048_1_0_n_n_0_1_12048_wf
def dot_S64x2x16384_S16384x2048_S64x2x2048_2_0_01_1_n_n : DotDims S64x2x16384 S16384x2048 S64x2x2048 where
  lhsContracting := [2]
  rhsContracting := [0]
  lhsNonContracting := [0, 1]
  rhsNonContracting := [1]
  lhsBatch := []
  rhsBatch := []
  wf := dot_S64x2x16384_S16384x2048_S64x2x2048_2_0_01_1_n_n_wf

class Facts : Prop extends Facts₀ where

variable [Facts]
-- ==== Proof.LibUnitRect.lean ====
/-
  Reading a matrix through a unit-stride rectangle.

  A unit-stride rectangle of an N0 × N1 matrix with first row o0, first column o1 and n0 × n1 entries places its own
  index (a, b) at the matrix index (o0 + a, o1 + b). This is what a load or a store through such a rectangle reads or
  writes, entry by entry: a body that handles a block in several rectangular pieces is read piece by piece with it.
  The target coordinates are taken as arbitrary indices with their values given by hypotheses, so that a caller can name
  them in whatever form its own statement uses (a literal offset, a grid coordinate's multiple, a computed offset known
  only through an equation) and never has to rewrite the rectangle itself, whose bounds proof depends on the offsets.
-/
import Idealize.ShloMosaic.Lib.ValueIdx

namespace Cert.LibUnitRect

open Idealize.ShloMosaic Idealize.ShloMosaic.ValueIdx

/-- A unit-stride rectangle of a matrix places its own index `x` at (first row + x 0, first column + x 1): for any
    matrix indices `a`, `b` with those values, `idx x = (a, b)`. -/
theorem unit_idx2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).idx x = ix2 a b := by
  funext d; apply Fin.ext
  match d with
  | ⟨0, _⟩ => show off 0 + 1 * (x 0).val = a.val; omega
  | ⟨1, _⟩ => show off 1 + 1 * (x 1).val = b.val; omega

/-- The same for the rectangle's embedding (a store's side of the same reading). -/
theorem unit_emb2 {N0 N1 : Nat} (off size : Fin 2 → Nat) (inb : ∀ a, off a + size a ≤ (⟨2, ![N0, N1]⟩ : Shape).size a)
    (x : (Rect.unit (s := ⟨2, ![N0, N1]⟩) off size inb).shape.Idx) (a : Fin N0) (b : Fin N1)
    (ha : a.val = off 0 + (x 0).val) (hb : b.val = off 1 + (x 1).val) :
    (Rect.unit (s := ⟨2, ![N0, N1]⟩) off size inb).emb x = ix2 a b :=
  unit_idx2 off size inb x a b ha hb

end Cert.LibUnitRect
-- ==== Proof.Pieces.lean ====
/-
  What one grid point of the kernel leaves behind, read off the pieces its run found.

  The kernel keeps two tables between grid points. `bind` (128 × 2048) is written once, at the first point: polarity
  bound with time over the 128 merged rows. The accumulator (1 × 2048) is zeroed at the first point and then, at every
  point, receives in each of its two halves of 1024 lanes the point's contribution: the block of 1024 pixels of the
  histogram contracted with `bind` over the merged rows, weighted by the block of the position table and summed over
  the block's pixels. At the last point the output block receives the sign of the accumulator.

  Here the two tables after a point are named as pure terms of the point's input blocks and of the tables before it:
  `bindOf` for the bound table and `accStep` for the accumulator after one more block. The three kinds of point (first,
  middle, last) leave exactly these terms.
-/
import proofs.«176864_g4612794876553_cont_8to1_c_351_39_alg».proof.Proof.Gen.KernelIdeal.Frame
import proofs.«176864_g4612794876553_cont_8to1_c_351_39_alg».proof.Proof.LibUnitRect
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The bound table from the polarity block and the time block: row `tp` is polarity row `tp mod 2` times time row
    `tp div 2` (the time row picked by a 0/1 selector matrix). -/
def bindOf (x3 : Vec F S2x2048 .f32) (x2 : Vec F S64x2048 .f32) : Vec F S128x2048 .f32 :=
  k0_pay5 (k0_pay3 x3) k0_pay4 x2

/-- The accumulator after one more block: each half of 1024 lanes is the old half plus the block's contribution
    computed from the matching half of the bound table and of the position block. -/
def accStep (x0 : Vec F S128x8x128 .f32) (x1 : Vec F S1024x2048 .f32) (b : Vec F S128x2048 .f32) (a : Vec F S1x2048 .f32) :
    Vec F S1x2048 .f32 :=
  View.canon
    [⟨Rect.unit (s := S1x2048) ![0, 1024] S1x1024.size inb_S1x2048_S1x1024_0_1024,
        k0_pay8 x0 (View.ld b (Rect.unit (s := S128x2048) ![0, 1024] S128x1024.size inb_S128x2048_S128x1024_0_1024))
          (View.ld a (Rect.unit (s := S1x2048) ![0, 1024] S1x1024.size inb_S1x2048_S1x1024_0_1024))
          (View.ld x1 (Rect.unit (s := S1024x2048) ![0, 1024] S1024x1024.size inb_S1024x2048_S1024x1024_0_1024))⟩,
      ⟨Rect.unit (s := S1x2048) ![0, 0] S1x1024.size inb_S1x2048_S1x1024_0_0,
        k0_pay7 x0 (View.ld b (Rect.unit (s := S128x2048) ![0, 0] S128x1024.size inb_S128x2048_S128x1024_0_0))
          (View.ld a (Rect.unit (s := S1x2048) ![0, 0] S1x1024.size inb_S1x2048_S1x1024_0_0))
          (View.ld x1 (Rect.unit (s := S1024x2048) ![0, 0] S1024x1024.size inb_S1024x2048_S1024x1024_0_0))⟩]

/-- A middle point leaves the accumulator one block further. -/
theorem acc_B (c : Dev nD) (i : grid0.Coords) (arg1 : Memref sig .tc .vmem S128x8x128 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S2x2048 .f32) (harg4 : arg4.IsWhole) (arg5 : Memref sig .tc .vmem S1x2048 .f32) (harg5 : arg5.IsWhole) (arg6 : Memref sig .tc .vmem S128x2048 .f32) (harg6 : arg6.IsWhole) (arg7 : Memref sig .tc .vmem S1x2048 .f32) (harg7 : arg7.IsWhole) (hc0 : ¬cond0_0 i) (hc1 : ¬cond0_1 i)
    (x0 : Vec F S128x8x128 .f32) (x1 : Vec F S1024x2048 .f32) (x2 : Vec F S64x2048 .f32) (x3 : Vec F S2x2048 .f32) (xs0 : Vec F S128x2048 .f32) (xs1 : Vec F S1x2048 .f32) :
    sout0_B_1 c i arg1 harg1 arg2 harg2 arg3 harg3 arg4 harg4 arg5 harg5 arg6 harg6 arg7 harg7 hc0 hc1 x0 x1 x2 x3 xs0 xs1 = accStep x0 x1 xs0 xs1 := by
  unfold sout0_B_1
  rw [View.read_writes_eq_canon _ _ _ (scover0_B_1 c i arg1 harg1 arg2 harg2 arg3 harg3 arg4 harg4 arg5 harg5 arg6 harg6 arg7 harg7 hc0 hc1 x0 x1 x2 x3 xs0 xs1)]
  unfold kernelRun0_B
  dsimp only
  sl_unfold_words
  simp only [View.readAt_eq_ld, harg1.read_unread, harg2.read_unread, harg6.read_unread, harg7.read_unread,
    View.ld_unit_zero (S := S128x8x128) hz3]
  rfl

/-- The last point leaves the accumulator one block further, -/
theorem acc_C (c : Dev nD) (i : grid0.Coords) (arg1 : Memref sig .tc .vmem S128x8x128 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S2x2048 .f32) (harg4 : arg4.IsWhole) (arg5 : Memref sig .tc .vmem S1x2048 .f32) (harg5 : arg5.IsWhole) (arg6 : Memref sig .tc .vmem S128x2048 .f32) (harg6 : arg6.IsWhole) (arg7 : Memref sig .tc .vmem S1x2048 .f32) (harg7 : arg7.IsWhole) (hc0 : ¬cond0_0 i) (hc1 : cond0_1 i)
    (x0 : Vec F S128x8x128 .f32) (x1 : Vec F S1024x2048 .f32) (x2 : Vec F S64x2048 .f32) (x3 : Vec F S2x2048 .f32) (xs0 : Vec F S128x2048 .f32) (xs1 : Vec F S1x2048 .f32) :
    sout0_C_1 c i arg1 harg1 arg2 harg2 arg3 harg3 arg4 harg4 arg5 harg5 arg6 harg6 arg7 harg7 hc0 hc1 x0 x1 x2 x3 xs0 xs1 = accStep x0 x1 xs0 xs1 := by
  unfold sout0_C_1
  rw [View.read_writes_eq_canon _ _ _ (scover0_C_1 c i arg1 harg1 arg2 harg2 arg3 harg3 arg4 harg4 arg5 harg5 arg6 harg6 arg7 harg7 hc0 hc1 x0 x1 x2 x3 xs0 xs1)]
  unfold kernelRun0_C
  dsimp only
  sl_unfold_words
  simp only [View.readAt_eq_ld, harg1.read_unread, harg2.read_unread, harg6.read_unread, harg7.read_unread,
    View.ld_unit_zero (S := S128x8x128) hz3]
  rfl

/-- Two pieces that together cover the buffer shadow every earlier store. -/
theorem canon_two_of_cover {Val : EltTy → Type} [∀ e, Nonempty (Val e)] {s : Shape} {e : EltTy}
    (p q : View.Piece Val s e) (L : List (View.Piece Val s e))
    (hcov : ∀ y : s.Idx, y ∈ p.1.set ∨ y ∈ q.1.set) : View.canon (p :: q :: L) = View.canon [p, q] := by
  funext y
  by_cases hp : y ∈ p.1.set
  · obtain ⟨x, rfl⟩ := p.1.exists_idx_of_mem hp
    rw [show p.1.idx x = p.1.emb x from rfl]
    obtain ⟨r, w⟩ := p
    rw [View.canon_cons_emb, View.canon_cons_emb]
  · rw [View.canon_cons_of_not_mem _ _ hp, View.canon_cons_of_not_mem _ _ hp]
    have hq := (hcov y).resolve_left hp
    obtain ⟨x, rfl⟩ := q.1.exists_idx_of_mem hq
    rw [show q.1.idx x = q.1.emb x from rfl]
    obtain ⟨r, w⟩ := q
    rw [View.canon_cons_emb, View.canon_cons_emb]

/-- The two halves of 1024 lanes cover the 2048 lanes. -/
theorem halves_cover (y : S1x2048.Idx) :
    y ∈ (Rect.unit (s := S1x2048) ![0, 1024] S1x1024.size inb_S1x2048_S1x1024_0_1024).set
      ∨ y ∈ (Rect.unit (s := S1x2048) ![0, 0] S1x1024.size inb_S1x2048_S1x1024_0_0).set := by
  have h0 : (y 0 : Nat) < 1 := (y 0).isLt
  have h1 : (y 1 : Nat) < 2048 := (y 1).isLt
  by_cases h : (y 1 : Nat) < 1024
  · right
    rw [Rect.mem_set_unit]
    intro a
    match a with
    | ⟨0, _⟩ => show 0 ≤ (y 0 : Nat) ∧ (y 0 : Nat) < 0 + 1; omega
    | ⟨1, _⟩ => show 0 ≤ (y 1 : Nat) ∧ (y 1 : Nat) < 0 + 1024; omega
  · left
    rw [Rect.mem_set_unit]
    intro a
    match a with
    | ⟨0, _⟩ => show 0 ≤ (y 0 : Nat) ∧ (y 0 : Nat) < 0 + 1; omega
    | ⟨1, _⟩ => show 1024 ≤ (y 1 : Nat) ∧ (y 1 : Nat) < 1024 + 1024; omega

/-- So a store into each half, the upper one last, shadows every earlier store into the accumulator. -/
theorem canon_halves
    (whi : (Rect.unit (s := S1x2048) ![0, 1024] S1x1024.size inb_S1x2048_S1x1024_0_1024).shape.Idx → Elt F .f32)
    (wlo : (Rect.unit (s := S1x2048) ![0, 0] S1x1024.size inb_S1x2048_S1x1024_0_0).shape.Idx → Elt F .f32)
    (L : List (View.Piece (Elt F) S1x2048 .f32)) :
    View.canon ((⟨Rect.unit (s := S1x2048) ![0, 1024] S1x1024.size inb_S1x2048_S1x1024_0_1024, whi⟩ : View.Piece (Elt F) S1x2048 .f32)
        :: ⟨Rect.unit (s := S1x2048) ![0, 0] S1x1024.size inb_S1x2048_S1x1024_0_0, wlo⟩ :: L)
      = View.canon [(⟨Rect.unit (s := S1x2048) ![0, 1024] S1x1024.size inb_S1x2048_S1x1024_0_1024, whi⟩ : View.Piece (Elt F) S1x2048 .f32),
          ⟨Rect.unit (s := S1x2048) ![0, 0] S1x1024.size inb_S1x2048_S1x1024_0_0, wlo⟩] :=
  canon_two_of_cover _ _ L halves_cover

/-- A load of the upper half of the lanes does not see a store into the lower half. -/
theorem readCov_skip_lower {sg : RefSig} {κ : Kind} {sp : Space} (v : View sg κ sp S1x2048 .f32)
    (w : (Rect.unit (s := S1x2048) ![0, 0] S1x1024.size inb_S1x2048_S1x1024_0_0).shape.Idx → Elt F .f32)
    (L : List (View.Piece (Elt F) S1x2048 .f32)) :
    v.readCov (⟨Rect.unit (s := S1x2048) ![0, 0] S1x1024.size inb_S1x2048_S1x1024_0_0, w⟩ :: L)
        (Rect.unit (s := S1x2048) ![0, 1024] S1x1024.size inb_S1x2048_S1x1024_0_1024).toLoadRect
      = v.readCov L (Rect.unit (s := S1x2048) ![0, 1024] S1x1024.size inb_S1x2048_S1x1024_0_1024).toLoadRect :=
  View.readCov_cons_of_disjoint v _ L _ (Rect.unit_disjoint (inb := inb_S1x2048_S1x1024_0_0) (inb' := inb_S1x2048_S1x1024_0_1024) (1 : Fin 2) (Or.inl (by decide)))

/-- The first point writes the bound table. -/
theorem bind_A (c : Dev nD) (i : grid0.Coords) (arg1 : Memref sig .tc .vmem S128x8x128 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S2x2048 .f32) (harg4 : arg4.IsWhole) (arg5 : Memref sig .tc .vmem S1x2048 .f32) (harg5 : arg5.IsWhole) (arg6 : Memref sig .tc .vmem S128x2048 .f32) (harg6 : arg6.IsWhole) (arg7 : Memref sig .tc .vmem S1x2048 .f32) (harg7 : arg7.IsWhole) (hc0 : cond0_0 i) (hc1 : ¬cond0_1 i)
    (x0 : Vec F S128x8x128 .f32) (x1 : Vec F S1024x2048 .f32) (x2 : Vec F S64x2048 .f32) (x3 : Vec F S2x2048 .f32) :
    sout0_A_0 c i arg1 harg1 arg2 harg2 arg3 harg3 arg4 harg4 arg5 harg5 arg6 harg6 arg7 harg7 hc0 hc1 x0 x1 x2 x3 = bindOf x3 x2 := by
  unfold sout0_A_0
  rw [View.read_writes_eq_canon _ _ _ (scover0_A_0 c i arg1 harg1 arg2 harg2 arg3 harg3 arg4 harg4 arg5 harg5 arg6 harg6 arg7 harg7 hc0 hc1 x0 x1 x2 x3)]
  unfold kernelRun0_A
  dsimp only
  sl_unfold_words
  simp only [View.readAt_eq_ld, harg3.read_unread, harg4.read_unread,
    View.ld_unit_zero (S := S2x2048) hz2, View.ld_unit_zero (S := S64x2048) hz2]
  rw [View.canon_unit_zero (S := S128x2048) hz2]
  rfl

/-- The first point zeroes the accumulator and adds the first block, computed with the bound table it has just written. -/
theorem acc_A (c : Dev nD) (i : grid0.Coords) (arg1 : Memref sig .tc .vmem S128x8x128 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S2x2048 .f32) (harg4 : arg4.IsWhole) (arg5 : Memref sig .tc .vmem S1x2048 .f32) (harg5 : arg5.IsWhole) (arg6 : Memref sig .tc .vmem S128x2048 .f32) (harg6 : arg6.IsWhole) (arg7 : Memref sig .tc .vmem S1x2048 .f32) (harg7 : arg7.IsWhole) (hc0 : cond0_0 i) (hc1 : ¬cond0_1 i)
    (x0 : Vec F S128x8x128 .f32) (x1 : Vec F S1024x2048 .f32) (x2 : Vec F S64x2048 .f32) (x3 : Vec F S2x2048 .f32) :
    sout0_A_1 c i arg1 harg1 arg2 harg2 arg3 harg3 arg4 harg4 arg5 harg5 arg6 harg6 arg7 harg7 hc0 hc1 x0 x1 x2 x3 = accStep x0 x1 (bindOf x3 x2) k0_pay2 := by
  unfold sout0_A_1
  rw [View.read_writes_eq_canon _ _ _ (scover0_A_1 c i arg1 harg1 arg2 harg2 arg3 harg3 arg4 harg4 arg5 harg5 arg6 harg6 arg7 harg7 hc0 hc1 x0 x1 x2 x3)]
  unfold kernelRun0_A
  dsimp only
  sl_unfold_words
  simp only [View.readAt_eq_ld, harg1.read_unread, harg2.read_unread, harg3.read_unread, harg4.read_unread,
    View.ld_unit_zero (S := S128x8x128) hz3, View.ld_unit_zero (S := S2x2048) hz2, View.ld_unit_zero (S := S64x2048) hz2]
  rw [readCov_skip_lower]
  simp only [View.readCov_eq_canon', View.canon_unit_zero (S := S128x2048) hz2, View.canon_unit_zero (S := S1x2048) hz2]
  rw [canon_halves]
  rfl

/-- and the output block receives the sign of the accumulator it has just completed. -/
theorem out_C (c : Dev nD) (i : grid0.Coords) (arg1 : Memref sig .tc .vmem S128x8x128 .f32) (harg1 : arg1.IsWhole) (arg2 : Memref sig .tc .vmem S1024x2048 .f32) (harg2 : arg2.IsWhole) (arg3 : Memref sig .tc .vmem S64x2048 .f32) (harg3 : arg3.IsWhole) (arg4 : Memref sig .tc .vmem S2x2048 .f32) (harg4 : arg4.IsWhole) (arg5 : Memref sig .tc .vmem S1x2048 .f32) (harg5 : arg5.IsWhole) (arg6 : Memref sig .tc .vmem S128x2048 .f32) (harg6 : arg6.IsWhole) (arg7 : Memref sig .tc .vmem S1x2048 .f32) (harg7 : arg7.IsWhole) (hc0 : ¬cond0_0 i) (hc1 : cond0_1 i)
    (x0 : Vec F S128x8x128 .f32) (x1 : Vec F S1024x2048 .f32) (x2 : Vec F S64x2048 .f32) (x3 : Vec F S2x2048 .f32) (xs0 : Vec F S128x2048 .f32) (xs1 : Vec F S1x2048 .f32) :
    out0_C_4 c i arg1 harg1 arg2 harg2 arg3 harg3 arg4 harg4 arg5 harg5 arg6 harg6 arg7 harg7 hc0 hc1 x0 x1 x2 x3 xs0 xs1 = k0_pay1 (accStep x0 x1 xs0 xs1) := by
  unfold out0_C_4
  rw [View.read_writes_eq_canon _ _ _ (cover0_C_4 c i arg1 harg1 arg2 harg2 arg3 harg3 arg4 harg4 arg5 harg5 arg6 harg6 arg7 harg7 hc0 hc1 x0 x1 x2 x3 xs0 xs1)]
  unfold kernelRun0_C
  dsimp only
  sl_unfold_words
  simp only [View.readAt_eq_ld, harg1.read_unread, harg2.read_unread, harg6.read_unread, harg7.read_unread,
    View.ld_unit_zero (S := S128x8x128) hz3]
  rw [View.canon_unit_zero (S := S1x2048) hz2, View.readCov_eq_canon']
  exact congrArg k0_pay1 (View.ld_unit_zero (S := S1x2048) hz2 _ (accStep x0 x1 xs0 xs1))

end Cert.KernelIdeal.Body

end
-- ==== Proof.Chain.lean ====
/-
  The two tables the kernel carries, after every grid point.

  The bound table is written at the first point and never again, so after every point it is the term the first point
  wrote. The accumulator after point `n` is the chain: zero, plus block 0, plus block 1, …, plus block `n` — one
  `accStep` per point, each computed with that one bound table. Both are read off the generated description of what
  the points leave, by induction on the point. At the last point the output block receives the sign of the completed
  accumulator.
-/
import proofs.«176864_g4612794876553_cont_8to1_c_351_39_alg».proof.Proof.Gen.KernelIdeal.Frame
import proofs.«176864_g4612794876553_cont_8to1_c_351_39_alg».proof.Proof.Pieces
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Chain

open Cert.KernelIdeal Cert.KernelIdeal.Gen Cert.KernelIdeal.Body

variable {F : FTy → Type} [FloatOps F]
variable (m : (ℓ : Loc nD τ sig) → Buf (Elt F) ℓ)

theorem hN : cfg0.N = 16 := N_0

/-- The first grid point. -/
def t0 : Fin cfg0.N := ⟨0, by rw [hN]; decide⟩
/-- The last grid point. -/
def t15 : Fin cfg0.N := ⟨15, by rw [hN]; decide⟩

/-- The bound table, from the polarity and time blocks the first point sees. -/
def bindTbl (c : Dev nD) : Vec F S128x2048 .f32 := bindOf (iblk m c 3 t0) (iblk m c 2 t0)

/-- The accumulator after point `n`: zero plus the blocks 0 … n, one step per point. -/
def accChain (c : Dev nD) : (n : ℕ) → n < cfg0.N → Vec F S1x2048 .f32
  | 0, h => accStep (iblk m c 0 ⟨0, h⟩) (iblk m c 1 ⟨0, h⟩) (bindTbl m c) k0_pay2
  | n + 1, h => accStep (iblk m c 0 ⟨n + 1, h⟩) (iblk m c 1 ⟨n + 1, h⟩) (bindTbl m c) (accChain c n (Nat.lt_of_succ_lt h))

/-- After every point the bound table is the one the first point wrote and the accumulator is the chain. -/
theorem tables_eq (c : Dev nD) : ∀ (n : ℕ) (h : n < cfg0.N),
    (outsAt0 m c n h).2.1 = bindTbl m c ∧ (outsAt0 m c n h).2.2 = accChain m c n h
  | 0, h => by
    rw [outsAt0_A m c ⟨0, h⟩ rfl (by dsimp only; omega)]
    dsimp only
    exact ⟨bind_A .., acc_A ..⟩
  | n + 1, h => by
    have hN' : cfg0.N = 16 := N_0
    have ih := tables_eq c n (Nat.lt_of_succ_lt h)
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      refine ⟨?_, ?_⟩
      · unfold sout0_C_0
        exact ih.1
      · rw [acc_C]
        show accStep _ _ (outsAt0 m c n _).2.1 (outsAt0 m c n _).2.2 = accStep _ _ _ (accChain m c n _)
        rw [ih.1, ih.2]
    · rw [outsAt0_B m c ⟨n + 1, h⟩ h0 h1]
      dsimp only
      refine ⟨?_, ?_⟩
      · unfold sout0_B_0
        exact ih.1
      · rw [acc_B]
        show accStep _ _ (outsAt0 m c n _).2.1 (outsAt0 m c n _).2.2 = accStep _ _ _ (accChain m c n _)
        rw [ih.1, ih.2]

/-- What the kernel's result block holds: the sign of the completed accumulator. -/
def result (c : Dev nD) : Vec F S1x2048 .f32 := k0_pay1 (accChain m c 15 (by rw [hN]; decide))

/-- The last point leaves it in the output window's buffer. -/
theorem out_last (c : Dev nD) : (outsAt0 m c t15.val t15.isLt).1 = result m c := by
  rw [outsAt0_C m c t15 (by decide) rfl]
  dsimp only
  rw [out_C]
  have e := tables_eq m c (t15.val - 1) (Nat.lt_of_le_of_lt (Nat.sub_le _ _) t15.isLt)
  rw [e.1, e.2]
  rfl

end Cert.KernelIdeal.Chain

end
-- ==== Proof.KernelRun.lean ====
/-
  The kernel's run, with its result named.

  The output window's one block is the whole 1 × 2048 array, and it is written back once, after the last grid point,
  when it holds the sign of the completed accumulator. So the array the region leaves is that block; the host line after
  the region lays its 2048 entries out as a vector, and the four argument arrays end as they started.
-/
import proofs.«176864_g4612794876553_cont_8to1_c_351_39_alg».proof.Proof.Gen.KernelIdeal.Frame
import proofs.«176864_g4612794876553_cont_8to1_c_351_39_alg».proof.Proof.Chain
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.KernelRun

open Cert.KernelIdeal Cert.KernelIdeal.Gen Cert.KernelIdeal.Chain

variable {F : FTy → Type} [FloatOps F]
variable (m : (ℓ : Loc nD τ sig) → Buf (Elt F) ℓ) (ρ : Dev nD → PrngReg)

/-- The one write-back, after the last point, writes the result block: block (0, 0) of the 1 × 2048 array is the array. -/
theorem flushed_eq (c : Dev nD) (t : Fin cfg0.N) (hf : (cfg0.win 4).flush t = true) :
    (dats m 0 c).flushed 4 t = ((cfg0.win 4).blk t).view.read (Elt F) (result m c) := by
  have hN : cfg0.N = 16 := N_0
  have h15 : t.val = 15 := by have := (flush0_4 t).mp hf; have := t.isLt; omega
  obtain rfl : t = t15 := Fin.ext h15
  show (cfg0.win 4).cut (grid0.coords t15) ((dats m 0 c).after 4 t15) = _
  rw [after0_4, out_last]
  have hz' : (fun a => win0_4.index t15 a * main_v1.ty.shape.size a) = fun _ => 0 := funext fun a => by fin_cases a <;> decide
  exact (Memref.read_access_unit_zero (Elt F) main_v1 hz' (fun a => by rw [congrFun hz' a]; simp) (result m c)).symm

/-- So the array the region leaves is the result block. -/
theorem final (c : Dev nD) : (dats m 0 c).arrAt 4 cfg0.N = result m c :=
  (dats m 0 c).arrAt_eq_of_cover 4 (result m c) (flushed_eq m c) fun i =>
    ⟨t15, (flush0_4 t15).mpr rfl, by
      show i ∈ ((View.whole main_v1).slice (win0_4.rect t15)).set
      rw [View.set_slice_whole, Rect.mem_set_unit]
      intro a
      have h0 : (i 0 : Nat) < 1 := (i 0).isLt
      have h1 : (i 1 : Nat) < 2048 := (i 1).isLt
      match a with
      | ⟨0, _⟩ => show win0_4.index t15 0 * win0_4.size 0 ≤ (i 0 : Nat) ∧ (i 0 : Nat) < win0_4.index t15 0 * win0_4.size 0 + win0_4.xsize (grid0.coords t15) 0
                  rw [show win0_4.index t15 0 * win0_4.size 0 = 0 from by decide +kernel, show win0_4.xsize (grid0.coords t15) 0 = 1 from by decide +kernel]; omega
      | ⟨1, _⟩ => show win0_4.index t15 1 * win0_4.size 1 ≤ (i 1 : Nat) ∧ (i 1 : Nat) < win0_4.index t15 1 * win0_4.size 1 + win0_4.xsize (grid0.coords t15) 1
                  rw [show win0_4.index t15 1 * win0_4.size 1 = 0 from by decide +kernel, show win0_4.xsize (grid0.coords t15) 1 = 2048 from by decide +kernel]; omega⟩

/-- The kernel's result vector: the result block's 2048 entries laid out as a vector. -/
def kerOut (c : Dev nD) : Vec F S2048 .f32 := shapeCast S2048 (result m c) shapeCasts_S1x2048_S2048

/-- Entry `d` of the result vector is entry `(0, d)` of the result block. -/
theorem kerOut_apply (c : Dev nD) (d : Fin 2048) :
    kerOut m c (ValueIdx.ix1 d) = result m c (ValueIdx.ix2 (0 : Fin 1) d) := by
  unfold kerOut
  refine shapeCast_apply (s := S1x2048) (t := S2048) _ _ _ _ ?_
  rw [Shape.rowMajor_val_two, Shape.rowMajor_val_one]
  show (0 : Nat) * 2048 + d.val = d.val
  omega

/-- The host line after the region computes it from the array the region leaves. -/
theorem tail_eq (c : Dev nD) : Pipeline.afterTail₀ cfgs (dats m) 0 (V0 m) [hostOps1] c main_v2 = kerOut m c := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.tc.devRef main_v1)
        = result m c from (Pipeline.withArrays_arr spec0 launch0.win.arr_inj c _ _ 4).trans (final m c)]
  rfl

/-- The run, read: the result vector named, the four arguments unchanged. -/
theorem run : θ_run defs (onTc (τ := τ) (main (F := F))) ⟨m, fun _ => 0, ρ⟩ fun r => ∀ c : Dev nD,
      r.2.mem ((c.tc : Thread nD τ).loc main_v2) = kerOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 2).trans (((dats m 0 c).arrAt_in 2 rfl _).trans ((A_eq m c 2).trans (V_main_arg1 m c))),
      ((h c).1 3).trans (((dats m 0 c).arrAt_in 3 rfl _).trans ((A_eq m c 3).trans (V_main_arg2 m c))),
      ((h c).1 1).trans (((dats m 0 c).arrAt_in 1 rfl _).trans ((A_eq m c 1).trans (V_main_arg3 m c)))⟩)
    (run_main m ρ)

end Cert.KernelIdeal.KernelRun

end
-- ==== Proof.Spec.lean ====
/-
  The mathematics of this certificate, stated once over plain arrays of extended reals, with no program in sight.

  Four arrays: a histogram `hist[t, p, y, x]` (64 × 2 × 128 × 128), and three tables of hypervectors of dimension 2048 —
  `time[t, d]` (64 rows), `pol[p, d]` (2 rows), `pos[n, d]` (16384 rows, one per pixel `n = y·128 + x`).
  The result is, for every coordinate `d`, the sign of the weighted sum of bound hypervectors

      ∑ over (t, p, n) of  hist[t, p, n] · pos[n, d] · pol[p, d] · time[t, d].

  Two arrangements of that sum are named here. `refSum` contracts the pixels first (one matrix product of the flattened
  histogram with the position table) and then weights by polarity and time and sums over `(t, p)`. `kerSum` first binds
  polarity and time into one table `bind[tp, d] = pol[tp mod 2, d] · time[tp div 2, d]` over the 128 merged rows
  `tp = 2·t + p`, then for each of 16 blocks of 1024 consecutive pixels contracts the histogram with `bind` over `tp`,
  weights by the position table and sums over the block's pixels; the 16 block sums are added up. On real entries the
  two are equal by distributivity and reordering of finite sums (`kerSum_eq_refSum`, proved in its own module); on
  infinite entries distributivity can fail, which is why the equality is stated under `AllReal`.
-/
import Idealize.ShloMosaic.PureOps.Ideal
import Idealize.ShloMosaic.Lib.ValueIdx

noncomputable section

open scoped BigOperators

namespace Cert.Spec

open Idealize.ShloMosaic Idealize.ShloMosaic.ValueIdx

/-- The histogram, indexed `(t, p, y, x)`. -/
abbrev Hist := (⟨4, ![64, 2, 128, 128]⟩ : Shape).Idx → EReal
/-- The time table, indexed `(t, d)`. -/
abbrev Time := (⟨2, ![64, 2048]⟩ : Shape).Idx → EReal
/-- The polarity table, indexed `(p, d)`. -/
abbrev Pol := (⟨2, ![2, 2048]⟩ : Shape).Idx → EReal
/-- The position table, indexed `(n, d)`, `n = y·128 + x`. -/
abbrev Pos := (⟨2, ![16384, 2048]⟩ : Shape).Idx → EReal

/-- The time step of a merged row `tp = 2·t + p`. -/
def half (tp : Fin 128) : Fin 64 := ⟨tp.val / 2, by omega⟩
/-- The polarity of a merged row `tp = 2·t + p`. -/
def par (tp : Fin 128) : Fin 2 := ⟨tp.val % 2, by omega⟩
/-- The image row `y` of pixel `n = y·128 + x`. -/
def rowOf (n : Fin 16384) : Fin 128 := ⟨n.val / 128, by omega⟩
/-- The image column `x` of pixel `n = y·128 + x`. -/
def colOf (n : Fin 16384) : Fin 128 := ⟨n.val % 128, by omega⟩
/-- Pixel `r` of block `b`: `n = b·1024 + r`. -/
def pix (b : Fin 16) (r : Fin 1024) : Fin 16384 := ⟨b.val * 1024 + r.val, by omega⟩

variable (hist : Hist) (time : Time) (pol : Pol) (pos : Pos)

/-- Pixels first: `∑ₜ ∑ₚ ((∑ₙ hist[t,p,n] · pos[n,d]) · pol[p,d]) · time[t,d]`. -/
def refSum (d : Fin 2048) : EReal :=
  ∑ t : Fin 64, ∑ p : Fin 2,
    ((∑ n : Fin 16384, hist (ix4 t p (rowOf n) (colOf n)) * pos (ix2 n d)) * pol (ix2 p d)) * time (ix2 t d)

/-- Polarity bound with time over the merged rows: `bind[tp, d] = pol[tp mod 2, d] · time[tp div 2, d]`. -/
def bind (tp : Fin 128) (d : Fin 2048) : EReal := pol (ix2 (par tp) d) * time (ix2 (half tp) d)

/-- One block of 1024 pixels: `∑ᵣ pos[n,d] · ∑ₜₚ hist[tp, n] · bind[tp, d]` with `n = b·1024 + r`. -/
def blockSum (b : Fin 16) (d : Fin 2048) : EReal :=
  ∑ r : Fin 1024, pos (ix2 (pix b r) d) *
    ∑ tp : Fin 128, hist (ix4 (half tp) (par tp) (rowOf (pix b r)) (colOf (pix b r))) * bind time pol tp d

/-- The 16 block sums added up. -/
def kerSum (d : Fin 2048) : EReal := ∑ b : Fin 16, blockSum hist time pol pos b d

/-- An extended real that is a real number. -/
def IsReal (x : EReal) : Prop := ∃ r : ℝ, x = (r : EReal)

/-- Every entry of the four arrays is a real number. -/
def AllReal : Prop :=
  (∀ i, IsReal (hist i)) ∧ (∀ i, IsReal (time i)) ∧ (∀ i, IsReal (pol i)) ∧ (∀ i, IsReal (pos i))

end Cert.Spec

end
-- ==== Proof.Blocks.lean ====
/-
  What each input window's block holds at a grid point, in terms of the argument arrays.

  The grid has 16 points `t`. The histogram is first reshaped from `[64, 2, 128, 128]` to `[128, 128, 128]` by merging
  time step and polarity into one row `tp = 2·t' + p`; a reshape keeps the row-major position, so entry `(tp, y, w)` of
  the reshaped array is entry `(tp div 2, tp mod 2, y, w)` of the original. Window 0 reads block `(0, t, 0)` of size
  `[128, 8, 128]` of the reshaped array: its entry `(tp, hh, w)` is the reshaped array at `(tp, 8·t + hh, w)`.
  Window 1 reads block `(t, 0)` of size `[1024, 2048]` of the position table: its entry `(r, d)` is the table at
  `(1024·t + r, d)`. Windows 2 and 3 read the whole time and polarity tables at every point.
-/
import proofs.«176864_g4612794876553_cont_8to1_c_351_39_alg».proof.Proof.Gen.KernelIdeal.Frame
import proofs.«176864_g4612794876553_cont_8to1_c_351_39_alg».proof.Proof.Spec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

noncomputable section

namespace Cert.KernelIdeal.Blocks

open Idealize.ShloMosaic Idealize.ShloMosaic.TcCoe Idealize.ShloMosaic.ValueIdx Idealize.SL.Sem Cert.KernelIdeal Cert.KernelIdeal.Gen

variable {F : FTy → Type} [FloatOps F] (m : (ℓ : Loc nD τ sig) → Buf (Elt F) ℓ)

/-- The reshape of the histogram read at an index: merged row `tp` of the three-axis array is time step `tp div 2`,
    polarity `tp mod 2` of the four-axis one (both positions are `((tp · 128) + y) · 128 + w` in row-major order). -/
theorem reshape_hist_apply {α : Type} (x : S64x2x128x128.Idx → α) (h : S64x2x128x128.ShapeCasts S128x128x128)
    (tp : Fin 128) (y : Fin 128) (w : Fin 128) :
    shapeCast S128x128x128 x h (ix3 tp y w) = x (ix4 (Cert.Spec.half tp) (Cert.Spec.par tp) y w) := by
  refine shapeCast_apply x h _ _ ?_
  rw [Shape.rowMajor_val_four, Shape.rowMajor_val_three]
  show (((tp.val / 2) * 2 + tp.val % 2) * 128 + y.val) * 128 + w.val = (tp.val * 128 + y.val) * 128 + w.val
  omega

/-- Window 0 sits at block `(0, t, 0)`: decided over the 16 grid points. -/
theorem index0 : ∀ t : Fin grid0.N, win0_0.index t 0 = 0 ∧ win0_0.index t 1 = t.val ∧ win0_0.index t 2 = 0 := by
  decide +kernel
/-- Window 1 sits at block `(t, 0)`. -/
theorem index1 : ∀ t : Fin grid0.N, win0_1.index t 0 = t.val ∧ win0_1.index t 1 = 0 := by
  decide +kernel
/-- Window 2 sits at block `(0, 0)` at every point. -/
theorem index2 : ∀ t : Fin grid0.N, win0_2.index t 0 = 0 ∧ win0_2.index t 1 = 0 := by
  decide +kernel
/-- Window 3 sits at block `(0, 0)` at every point. -/
theorem index3 : ∀ t : Fin grid0.N, win0_3.index t 0 = 0 ∧ win0_3.index t 1 = 0 := by
  decide +kernel

/-- The reshaped histogram as the region finds it: the reshape of the histogram argument. -/
theorem V_main_v0 (c : Dev nD) : (V m c main_v0 : S128x128x128.Idx → Elt F .f32)
    = shapeCast S128x128x128 (m ((c : Thread nD τ).loc main_arg0)) shapeCasts_S64x2x128x128_S128x128x128 := by
  show StableHlo.after hostOps0 (fun b => m (c, b)) (Proc.devRef .tc main_v0) = _
  after_results
  rfl

/-- Window 0's block at point `t`: entry `(tp, hh, w)` is the histogram at time step `tp div 2`, polarity `tp mod 2`,
    image row `y = 8·t + hh`, column `w`. -/
theorem hist_block (c : Dev nD) (t : Fin cfg0.N) (tp : Fin 128) (hh : Fin 8) (w : Fin 128) (y : Fin 128)
    (hy : y.val = t.val * 8 + hh.val) :
    (iblk m c 0 t : Vec F S128x8x128 .f32) (ix3 tp hh w)
      = m ((c : Thread nD τ).loc main_arg0) (ix4 (Cert.Spec.half tp) (Cert.Spec.par tp) y w) := by
  have hi := index0 t
  unfold iblk
  rw [View.read_apply]
  show V m c main_v0 _ = _
  refine (congrFun (V_main_v0 m c) _).trans ?_
  refine Eq.trans (congrArg _ ?_) (reshape_hist_apply _ _ tp y w)
  funext a
  apply Fin.ext
  match a with
  | ⟨0, _⟩ => show win0_0.index t 0 * 128 + 1 * tp.val = tp.val; rw [hi.1]; omega
  | ⟨1, _⟩ => show win0_0.index t 1 * 8 + 1 * hh.val = y.val; rw [hi.2.1]; omega
  | ⟨2, _⟩ => show win0_0.index t 2 * 128 + 1 * w.val = w.val; rw [hi.2.2]; omega

/-- Window 1's block at point `t`: entry `(r, d)` is the position table at pixel `n = 1024·t + r`, coordinate `d`. -/
theorem pos_block (c : Dev nD) (t : Fin cfg0.N) (r : Fin 1024) (d : Fin 2048) (n : Fin 16384)
    (hn : n.val = t.val * 1024 + r.val) :
    (iblk m c 1 t : Vec F S1024x2048 .f32) (ix2 r d) = m ((c : Thread nD τ).loc main_arg3) (ix2 n d) := by
  have hi := index1 t
  unfold iblk
  rw [View.read_apply]
  show V m c main_arg3 _ = _
  rw [V_main_arg3]
  congr 1
  funext a
  apply Fin.ext
  match a with
  | ⟨0, _⟩ => show win0_1.index t 0 * 1024 + 1 * r.val = n.val; rw [hi.1]; omega
  | ⟨1, _⟩ => show win0_1.index t 1 * 2048 + 1 * d.val = d.val; rw [hi.2]; omega

/-- Window 2's block at every point is the whole time table. -/
theorem time_block (c : Dev nD) (t : Fin cfg0.N) :
    (iblk m c 2 t : Vec F S64x2048 .f32) = m ((c : Thread nD τ).loc main_arg1) := by
  have hi := index2 t
  funext j
  unfold iblk
  rw [View.read_apply]
  show V m c main_arg1 _ = m (c.tc.loc main_arg1) j
  rw [V_main_arg1]
  congr 1
  funext a
  apply Fin.ext
  match a with
  | ⟨0, _⟩ => show win0_2.index t 0 * 64 + 1 * (j 0).val = (j 0).val; rw [hi.1]; omega
  | ⟨1, _⟩ => show win0_2.index t 1 * 2048 + 1 * (j 1).val = (j 1).val; rw [hi.2]; omega

/-- Window 3's block at every point is the whole polarity table. -/
theorem pol_block (c : Dev nD) (t : Fin cfg0.N) :
    (iblk m c 3 t : Vec F S2x2048 .f32) = m ((c : Thread nD τ).loc main_arg2) := by
  have hi := index3 t
  funext j
  unfold iblk
  rw [View.read_apply]
  show V m c main_arg2 _ = m (c.tc.loc main_arg2) j
  rw [V_main_arg2]
  congr 1
  funext a
  apply Fin.ext
  match a with
  | ⟨0, _⟩ => show win0_3.index t 0 * 2 + 1 * (j 0).val = (j 0).val; rw [hi.1]; omega
  | ⟨1, _⟩ => show win0_3.index t 1 * 2048 + 1 * (j 1).val = (j 1).val; rw [hi.2]; omega

end Cert.KernelIdeal.Blocks

end
-- ==== Proof.PayZero.lean ====
import proofs.«176864_g4612794876553_cont_8to1_c_351_39_alg».proof.Proof.Gen.KernelIdeal.Skeleton
import proofs.«176864_g4612794876553_cont_8to1_c_351_39_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

/-!
  The running sum's initial value, read at one index over the extended reals: the zero word of the 32-bit float
  format denotes the number `0`, and a constant array reads its one value at every index.
-/

namespace Cert.KernelIdeal.Pay

open Idealize.ShloMosaic Idealize.ShloMosaic.ValueIdx Cert.KernelIdeal

/-- The running sum starts at `0` in every coordinate. -/
theorem pay2_apply (d : Fin 2048) : Gen.k0_pay2 (F := Ideal) (ix2 (0 : Fin 1) d) = 0 := by
  unfold Gen.k0_pay2
  rw [shapeCast_self, broadcast_apply]
  exact Ideal.ofBits_zero_f32

end Cert.KernelIdeal.Pay

end
-- ==== Proof.PaySign.lean ====
import proofs.«176864_g4612794876553_cont_8to1_c_351_39_alg».proof.Proof.Gen.KernelIdeal.Skeleton
import proofs.«176864_g4612794876553_cont_8to1_c_351_39_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

/-!
  The sign taken at the last grid point, read at one index over the extended reals.

  The body writes the sign of `v` as: where `|v| > 0`, the number `1` carrying the sign of `v` (that is `-1` where `v < 0`
  and `1` otherwise), and `v` itself elsewhere — which at `v = 0` is `0`. On the extended reals this is the sign function
  at every value, the two infinities included: `-1` below zero, `0` at zero, `1` above it.
-/

namespace Cert.KernelIdeal.Pay

open Idealize.ShloMosaic Idealize.ShloMosaic.ValueIdx Cert.KernelIdeal

/-- The stored sign at coordinate `d` is the sign of the running sum there. -/
theorem pay1_apply (v : Vec Ideal S1x2048 .f32) (d : Fin 2048) :
    Gen.k0_pay1 (F := Ideal) v (ix2 (0 : Fin 1) d) = Ideal.sign (v (ix2 (0 : Fin 1) d)) := by
  unfold Gen.k0_pay1
  exact Ideal.jnp_sign_eq_sign_f32 (v (ix2 (0 : Fin 1) d))

end Cert.KernelIdeal.Pay

end
-- ==== Proof.PayAcc.lean ====
import proofs.«176864_g4612794876553_cont_8to1_c_351_39_alg».proof.Proof.Gen.KernelIdeal.Skeleton
import proofs.«176864_g4612794876553_cont_8to1_c_351_39_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

/-!
  The accumulating payload of the kernel body, read at one index over the extended reals.

  One block of 1024 pixels contributes, to coordinate `e` of the running sum,

      ∑ over pixels r of  p[r, e] · ∑ over merged rows tp of  x[tp, r div 128, r mod 128] · bnd[tp, e].

  The body computes it in five steps: the histogram block `x`, a [128, 8, 128] array, is viewed as [128, 1024]
  (row-major, so column `r` is `(r div 128, r mod 128)`); a matrix product contracts the leading axis of that view with
  the leading axis of the bound table `bnd` into a zero accumulator; the result is multiplied entrywise by the position
  block `p`; the product is summed over its leading axis; and the row of sums, viewed as [1, 1024], is added to the running sum `acc`.
  Each step is read here at an index, and the five readings are chained.
-/

namespace Cert.KernelIdeal.Pay

open Idealize.ShloMosaic Idealize.ShloMosaic.ValueIdx Cert.KernelIdeal
open Facts₀ Facts

/-- The [128, 8, 128] block viewed as [128, 1024] reads, at `(tp, r)`, the block at `(tp, r div 128, r mod 128)`: both
    indices have row-major position `tp · 1024 + r`. -/
theorem pay6_apply (x : Vec Ideal S128x8x128 .f32) (tp : Fin 128) (r : Fin 1024) :
    Gen.k0_pay6 (F := Ideal) x (ix2 tp r) = x (ix3 tp (⟨r.val / 128, by omega⟩ : Fin 8) (⟨r.val % 128, by omega⟩ : Fin 128)) := by
  unfold Gen.k0_pay6
  rw [shapeCast_self]
  refine shapeCast_apply x _ (ix2 tp r) (ix3 tp (⟨r.val / 128, by omega⟩ : Fin 8) (⟨r.val % 128, by omega⟩ : Fin 128)) ?_
  rw [Shape.rowMajor_val_three, Shape.rowMajor_val_two]
  show (tp.val * 8 + r.val / 128) * 128 + r.val % 128 = tp.val * 1024 + r.val
  omega

/-- The matrix product that contracts the leading axes of two [128, 1024] arrays into a zero accumulator reads, at
    `(r, e)`, the sum over the contracted row `tp` of the products of the two entries. -/
theorem matmul_lead_apply (A : FVec Ideal S128x1024 .f32) (B : FVec Ideal S128x1024 .f32) (r e : Fin 1024) :
    matmul dot_S128x1024_S128x1024_S1024x1024_0_0_1_1_n_n none A B (constant (F := Ideal) S1024x1024 .f32 0x00000000#32) (ix2 r e)
      = ∑ tp : Fin 128, A (ix2 tp r) * B (ix2 tp e) := by
  show FloatOps.matmul _ none A B _ (ix2 r e) = _
  rw [Ideal.matmul_constant_zero_apply,
    ← Equiv.sum_comp (contrEquiv1 dot_S128x1024_S128x1024_S1024x1024_0_0_1_1_n_n 128 rfl rfl).symm]
  refine Finset.sum_congr rfl fun c _ => ?_
  have cv := contrEquiv1_symm_val dot_S128x1024_S128x1024_S1024x1024_0_0_1_1_n_n 128 rfl rfl c
  have l2 : dot_S128x1024_S128x1024_S1024x1024_0_0_1_1_n_n.lhsIdx (ix2 r e)
      ((contrEquiv1 dot_S128x1024_S128x1024_S1024x1024_0_0_1_1_n_n 128 rfl rfl).symm c) = ix2 c r := by
    funext ax; apply Fin.ext
    match ax with
    | ⟨0, _⟩ => simp [DotDims.lhsIdx, dot_S128x1024_S128x1024_S1024x1024_0_0_1_1_n_n]; exact cv
    | ⟨1, _⟩ => simp [DotDims.lhsIdx, dot_S128x1024_S128x1024_S1024x1024_0_0_1_1_n_n]; rfl
  have r2 : dot_S128x1024_S128x1024_S1024x1024_0_0_1_1_n_n.rhsIdx (ix2 r e)
      ((contrEquiv1 dot_S128x1024_S128x1024_S1024x1024_0_0_1_1_n_n 128 rfl rfl).symm c) = ix2 c e := by
    funext ax; apply Fin.ext
    match ax with
    | ⟨0, _⟩ => simp [DotDims.rhsIdx, dot_S128x1024_S128x1024_S1024x1024_0_0_1_1_n_n]; exact cv
    | ⟨1, _⟩ => simp [DotDims.rhsIdx, dot_S128x1024_S128x1024_S1024x1024_0_0_1_1_n_n]; rfl
  rw [l2, r2]

/-- The sum of a [1024, 1024] array over its leading axis reads, at `e`, the sum over the rows `r` of the entries
    `(r, e)`. -/
theorem reduce_lead_apply (v : FVec Ideal S1024x1024 .f32) (hφ : FKind.Formats .f32)
    (hacc : (0x00000000#32 : BitVec 32) = 0x00000000#32) (e : Fin 1024) :
    multiReduction .add [0] S1024 v 0x00000000#32 reduces_S1024x1024_S1024 hφ hacc (ix1 e) = ∑ r : Fin 1024, v (ix2 r e) := by
  refine (Ideal.multiReduction_add_single v 0x00000000#32 reduces_S1024x1024_S1024 hφ hacc (ix1 e)).trans ?_
  refine Finset.sum_congr rfl fun r _ => congrArg v ?_
  funext ax; apply Fin.ext
  match ax with
  | ⟨0, _⟩ => rfl
  | ⟨1, _⟩ => rfl

/-- One block's contribution added to the running sum, read at coordinate `e`. Stated for the function of the four
    vectors, which is the same for both halves of the running sum. -/
theorem pay7_apply (x : Vec Ideal S128x8x128 .f32) (bnd : Vec Ideal S128x1024 .f32) (acc : Vec Ideal S1x1024 .f32)
    (p : Vec Ideal S1024x1024 .f32) (e : Fin 1024) :
    Gen.k0_pay7 (F := Ideal) x bnd acc p (ix2 (0 : Fin 1) e)
      = acc (ix2 (0 : Fin 1) e) + ∑ r : Fin 1024, p (ix2 r e) * ∑ tp : Fin 128, x (ix3 tp (⟨r.val / 128, by omega⟩ : Fin 8) (⟨r.val % 128, by omega⟩ : Fin 128)) * bnd (ix2 tp e) := by
  unfold Gen.k0_pay7
  rw [shapeCast_self, addf_apply, shapeCast_a_1a_apply]
  refine congrArg (acc (ix2 (0 : Fin 1) e) + ·) ?_
  refine (reduce_lead_apply _ _ _ e).trans ?_
  refine Finset.sum_congr rfl fun r _ => ?_
  rw [mulf_apply, matmul_lead_apply]
  refine congrArg (p (ix2 r e) * ·) ?_
  refine Finset.sum_congr rfl fun tp _ => ?_
  rw [pay6_apply]

/-- The same reading for the second half of the running sum: its payload is the same function. -/
theorem pay8_apply (x : Vec Ideal S128x8x128 .f32) (bnd : Vec Ideal S128x1024 .f32) (acc : Vec Ideal S1x1024 .f32)
    (p : Vec Ideal S1024x1024 .f32) (e : Fin 1024) :
    Gen.k0_pay8 (F := Ideal) x bnd acc p (ix2 (0 : Fin 1) e)
      = acc (ix2 (0 : Fin 1) e) + ∑ r : Fin 1024, p (ix2 r e) * ∑ tp : Fin 128, x (ix3 tp (⟨r.val / 128, by omega⟩ : Fin 8) (⟨r.val % 128, by omega⟩ : Fin 128)) * bnd (ix2 tp e) :=
  pay7_apply x bnd acc p e

end Cert.KernelIdeal.Pay

end
-- ==== Proof.PayBind.lean ====
import proofs.«176864_g4612794876553_cont_8to1_c_351_39_alg».proof.Proof.Gen.KernelIdeal.Skeleton
import proofs.«176864_g4612794876553_cont_8to1_c_351_39_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

/-!
  Polarity bound with time over the merged rows, read at one index over the extended reals.

  The merged row `tp = 2·t + p` carries polarity `p = tp mod 2` and time step `t = tp div 2`. The body builds the
  table `bind[tp, d] = pol[tp mod 2, d] · time[tp div 2, d]` in three steps. A row selector picks, for each `tp`, row
  `0` of the polarity table where the lowest bit of `tp` is clear and row `1` where it is set. A 128 × 64 table of
  integer words holds `1` at `(tp, t)` where `t = tp div 2` and `0` elsewhere; its floor division is written as the
  truncating division with a correction for operands of opposite signs, which never applies to a non-negative `tp`.
  Converted to numbers and multiplied with the time table, that 0/1 table picks row `tp div 2` of it: in the sum over
  `t` every term but one is `0 · time[t, d] = 0` and the remaining one is `1 · time[tp div 2, d]` — for every extended
  real, the infinite ones included, so no finiteness is assumed. The two factors are then multiplied entrywise.
-/

namespace Cert.KernelIdeal.Pay

open Idealize.ShloMosaic Idealize.ShloMosaic.ValueIdx Cert.KernelIdeal
open Facts₀ Facts

/-! ## The row selector -/

/-- The lowest bit of the word of `tp` is clear exactly when `tp` is even. -/
theorem parity_word : ∀ tp : Fin 128,
    IntOp.cmpi .eq (IntOp.andi (BitVec.ofNat 32 tp.val) 1#32) 0#32 = if tp.val % 2 = 0 then 1#1 else 0#1 := by
  decide

/-- The selector's condition at `(tp, d)`: the bit `1` on even rows, `0` on odd ones. -/
theorem evenRow_apply (h : S128x2048.Iotas .tc 32 [0]) (tp : Fin 128) (d : Fin 2048) :
    cmpi .eq (andi (iota .tc S128x2048 32 [0] h) (broadcast S128x2048 1#32)) (broadcast S128x2048 0#32) (ix2 tp d)
      = if tp.val % 2 = 0 then 1#1 else 0#1 := by
  show IntOp.cmpi .eq (IntOp.andi (iota .tc S128x2048 32 [0] h (ix2 tp d)) 1#32) 0#32 = _
  rw [iota_single_apply]
  exact parity_word tp

/-- Row `0` of the polarity table, as a one-row array, reads the table at `(0, d)`. -/
theorem polRow0_apply (pol : Vec Ideal S2x2048 .f32) (h : S2x2048.Slices ![0, 0] S1x2048) (d : Fin 2048) :
    extractStridedSlice S1x2048 ![0, 0] pol h (ix2 (0 : Fin 1) d) = pol (ix2 (0 : Fin 2) d) := by
  refine extractStridedSlice_apply ![0, 0] pol h (ix2 (0 : Fin 1) d) (ix2 (0 : Fin 2) d) fun a => ?_
  match a with
  | ⟨0, _⟩ => rfl
  | ⟨1, _⟩ => exact (Nat.zero_add _).symm

/-- Row `1` of the polarity table, as a one-row array, reads the table at `(1, d)`. -/
theorem polRow1_apply (pol : Vec Ideal S2x2048 .f32) (h : S2x2048.Slices ![1, 0] S1x2048) (d : Fin 2048) :
    extractStridedSlice S1x2048 ![1, 0] pol h (ix2 (0 : Fin 1) d) = pol (ix2 (1 : Fin 2) d) := by
  refine extractStridedSlice_apply ![1, 0] pol h (ix2 (0 : Fin 1) d) (ix2 (1 : Fin 2) d) fun a => ?_
  match a with
  | ⟨0, _⟩ => rfl
  | ⟨1, _⟩ => exact (Nat.zero_add _).symm

/-- The selected polarity row at `(tp, d)` is the polarity table at `(tp mod 2, d)`. -/
theorem pay3_apply (pol : Vec Ideal S2x2048 .f32) (tp : Fin 128) (d : Fin 2048) :
    Gen.k0_pay3 (F := Ideal) pol (ix2 tp d) = pol (ix2 (Cert.Spec.par tp) d) := by
  unfold Gen.k0_pay3
  rw [select_apply, evenRow_apply, broadcastTo_1b_ab_apply, broadcastTo_1b_ab_apply, shapeCast_self, shapeCast_self,
    polRow0_apply, polRow1_apply]
  have h2 : tp.val % 2 = 0 ∨ tp.val % 2 = 1 := by omega
  rcases h2 with h | h
  · rw [if_pos h, select_one]
    exact congrArg (fun p : Fin 2 => pol (ix2 p d)) (Fin.ext (show (0 : Fin 2).val = (Cert.Spec.par tp).val from h.symm))
  · rw [if_neg (by omega), select_zero]
    exact congrArg (fun p : Fin 2 => pol (ix2 p d)) (Fin.ext (show (1 : Fin 2).val = (Cert.Spec.par tp).val from h.symm))

/-! ## The 0/1 table -/

/-- The floor division by two of a 32-bit word as the body writes it: the truncating signed quotient, lowered by one
    where the remainder is not zero and the signs of dividend and divisor differ. -/
def floorHalf (x : BitVec 32) : BitVec 32 :=
  Scalar.select
    (IntOp.andi
      (IntOp.cmpi .ne
        (IntOp.subi ((IntOp.cmpi .sgt x 0#32).setWidth 32) ((IntOp.cmpi .slt x 0#32).setWidth 32))
        (Scalar.subi (Scalar.extui (Scalar.cmpi .sgt 2#32 0#32)) (Scalar.extui (Scalar.cmpi .slt 2#32 0#32))))
      (IntOp.cmpi .ne (IntOp.remsi .vector x 2#32) 0#32))
    (IntOp.subi (IntOp.divsi .vector x 2#32) 1#32)
    (IntOp.divsi .vector x 2#32)

/-- On the word of a row number below 128 it is the word of half the row number, rounded down. -/
theorem floorHalf_ofNat : ∀ tp : Fin 128, floorHalf (BitVec.ofNat 32 tp.val) = BitVec.ofNat 32 (tp.val / 2) := by
  decide

/-- Two numbers below `2³²` have equal words exactly when they are equal; widened to 32 bits the comparison's bit is
    the word `1` or `0`. -/
theorem eqWord (a b : Nat) (ha : a < 2 ^ 32) (hb : b < 2 ^ 32) :
    (IntOp.cmpi .eq (BitVec.ofNat 32 a) (BitVec.ofNat 32 b)).setWidth 32 = if a = b then 1#32 else 0#32 := by
  by_cases h : a = b
  · subst h
    rw [if_pos rfl]
    simp [IntOp.cmpi]
  · rw [if_neg h]
    have hne : BitVec.ofNat 32 a ≠ BitVec.ofNat 32 b := by
      intro e
      apply h
      have := congrArg BitVec.toNat e
      rw [BitVec.toNat_ofNat, BitVec.toNat_ofNat, Nat.mod_eq_of_lt ha, Nat.mod_eq_of_lt hb] at this
      exact this
    have hbeq : (BitVec.ofNat 32 a == BitVec.ofNat 32 b) = false := beq_eq_false_iff_ne.mpr hne
    show BitVec.setWidth 32 (BitVec.ofBool (BitVec.ofNat 32 a == BitVec.ofNat 32 b)) = 0#32
    rw [hbeq]
    rfl

/-- The table at `(tp, t)`: the word `1` where `t = tp div 2`, the word `0` elsewhere. -/
theorem pay4_apply (tp : Fin 128) (t : Fin 64) :
    Gen.k0_pay4 (ix2 tp t) = if t.val = tp.val / 2 then 1#32 else 0#32 := by
  have e0 : iota .tc S128x64 32 [0] iota_S128x64_d0_w32 (ix2 tp t) = BitVec.ofNat 32 tp.val :=
    iota_single_apply _ _ _ _ _ _
  have e1 : iota .tc S128x64 32 [1] iota_S128x64_d1_w32 (ix2 tp t) = BitVec.ofNat 32 t.val :=
    iota_single_apply _ _ _ _ _ _
  have key : Gen.k0_pay4 (ix2 tp t)
      = (IntOp.cmpi .eq (iota .tc S128x64 32 [1] iota_S128x64_d1_w32 (ix2 tp t))
          (floorHalf (iota .tc S128x64 32 [0] iota_S128x64_d0_w32 (ix2 tp t)))).setWidth 32 := rfl
  rw [key, e0, e1, floorHalf_ofNat]
  exact eqWord t.val (tp.val / 2) (by omega) (by omega)

/-! ## The product with the time table -/

/-- The matrix product of a [128, 64] array with a [64, 2048] array into a zero accumulator reads, at `(tp, d)`, the
    sum over the contracted coordinate `t` of the products of the entries. -/
theorem matmul_rows_apply (A : FVec Ideal S128x64 .f32) (B : FVec Ideal S64x2048 .f32) (tp : Fin 128) (d : Fin 2048) :
    matmul dot_S128x64_S64x2048_S128x2048_1_0_0_1_n_n none A B (constant (F := Ideal) S128x2048 .f32 0x00000000#32) (ix2 tp d)
      = ∑ t : Fin 64, A (ix2 tp t) * B (ix2 t d) := by
  show FloatOps.matmul _ none A B _ (ix2 tp d) = _
  rw [Ideal.matmul_constant_zero_apply,
    ← Equiv.sum_comp (contrEquiv1 dot_S128x64_S64x2048_S128x2048_1_0_0_1_n_n 64 rfl rfl).symm]
  refine Finset.sum_congr rfl fun c _ => ?_
  have cv := contrEquiv1_symm_val dot_S128x64_S64x2048_S128x2048_1_0_0_1_n_n 64 rfl rfl c
  have l2 : dot_S128x64_S64x2048_S128x2048_1_0_0_1_n_n.lhsIdx (ix2 tp d)
      ((contrEquiv1 dot_S128x64_S64x2048_S128x2048_1_0_0_1_n_n 64 rfl rfl).symm c) = ix2 tp c := by
    funext ax; apply Fin.ext
    match ax with
    | ⟨0, _⟩ => simp [DotDims.lhsIdx, dot_S128x64_S64x2048_S128x2048_1_0_0_1_n_n]; rfl
    | ⟨1, _⟩ => simp [DotDims.lhsIdx, dot_S128x64_S64x2048_S128x2048_1_0_0_1_n_n]; exact cv
  have r2 : dot_S128x64_S64x2048_S128x2048_1_0_0_1_n_n.rhsIdx (ix2 tp d)
      ((contrEquiv1 dot_S128x64_S64x2048_S128x2048_1_0_0_1_n_n 64 rfl rfl).symm c) = ix2 c d := by
    funext ax; apply Fin.ext
    match ax with
    | ⟨0, _⟩ => simp [DotDims.rhsIdx, dot_S128x64_S64x2048_S128x2048_1_0_0_1_n_n]; exact cv
    | ⟨1, _⟩ => simp [DotDims.rhsIdx, dot_S128x64_S64x2048_S128x2048_1_0_0_1_n_n]; rfl
  rw [l2, r2]

/-- The 0/1 table, as numbers, times the time table picks row `tp div 2` of it. No entry needs to be finite: a term off
    the picked row is `0 · x = 0` and the picked one is `1 · x = x` for every extended real `x`. -/
theorem pickRow_apply (time : Vec Ideal S64x2048 .f32) (tp : Fin 128) (d : Fin 2048) :
    ∑ t : Fin 64, (sitofp (F := Ideal) .f32 Gen.k0_pay4 : FVec Ideal S128x64 .f32) (ix2 tp t) * time (ix2 t d)
      = time (ix2 (Cert.Spec.half tp) d) := by
  rw [Finset.sum_eq_single (Cert.Spec.half tp)]
  · rw [sitofp_apply, pay4_apply, if_pos (show (Cert.Spec.half tp).val = tp.val / 2 from rfl)]
    show (((1#32 : BitVec 32).toInt : ℝ) : EReal) * _ = _
    have h1 : (1#32 : BitVec 32).toInt = 1 := by decide
    rw [h1]
    simp
  · intro t _ hne
    have ht : ¬ t.val = tp.val / 2 := fun e => hne (Fin.ext e)
    rw [sitofp_apply, pay4_apply, if_neg ht]
    show (((0#32 : BitVec 32).toInt : ℝ) : EReal) * _ = 0
    have h0 : (0#32 : BitVec 32).toInt = 0 := by decide
    rw [h0]
    simp
  · intro h
    exact absurd (Finset.mem_univ _) h

/-- The bound table at `(tp, d)`: polarity `tp mod 2` times time step `tp div 2`. -/
theorem pay5_apply (pol : Vec Ideal S2x2048 .f32) (time : Vec Ideal S64x2048 .f32) (tp : Fin 128) (d : Fin 2048) :
    Gen.k0_pay5 (F := Ideal) (Gen.k0_pay3 pol) Gen.k0_pay4 time (ix2 tp d)
      = pol (ix2 (Cert.Spec.par tp) d) * time (ix2 (Cert.Spec.half tp) d) := by
  unfold Gen.k0_pay5
  rw [shapeCast_self, mulf_apply, pay3_apply, matmul_rows_apply, pickRow_apply]

end Cert.KernelIdeal.Pay

end
-- ==== Proof.StepValue.lean ====
import proofs.«176864_g4612794876553_cont_8to1_c_351_39_alg».proof.Proof.Pieces
import proofs.«176864_g4612794876553_cont_8to1_c_351_39_alg».proof.Proof.PayAcc
import proofs.«176864_g4612794876553_cont_8to1_c_351_39_alg».proof.Proof.PayBind
import proofs.«176864_g4612794876553_cont_8to1_c_351_39_alg».proof.Proof.LibUnitRect

/-!
  The two tables a grid point leaves, read at one index over the extended reals.

  The bound table at `(tp, d)` is polarity `tp mod 2` times time step `tp div 2`. The running sum after one more block
  is written in two halves of 1024 coordinates; coordinate `d` lies in exactly one of them, and there it is the old
  value plus the block's contribution

      ∑ over pixels r of  pos[r, d] · ∑ over merged rows tp of  hist[tp, r div 128, r mod 128] · bind[tp, d],

  each half computing it from its own columns of the bound table, of the position block and of the old running sum:
  the lower half reads column `d` itself, the upper half reads column `1024 + e` for its own coordinate `e = d − 1024`,
  which is column `d` again. So the two halves together are one formula in `d`.
-/

noncomputable section

open scoped BigOperators

namespace Cert.KernelIdeal.StepValue

open Idealize.ShloMosaic Idealize.ShloMosaic.ValueIdx Cert.KernelIdeal Cert.KernelIdeal.Gen Cert.KernelIdeal.Body
open Cert.LibUnitRect

/-- The bound table at `(tp, d)`: polarity `tp mod 2` times time step `tp div 2`. -/
theorem bindOf_apply (pol : Vec Ideal S2x2048 .f32) (time : Vec Ideal S64x2048 .f32) (tp : Fin 128) (d : Fin 2048) :
    bindOf (F := Ideal) pol time (ix2 tp d) = pol (ix2 (Cert.Spec.par tp) d) * time (ix2 (Cert.Spec.half tp) d) := by
  unfold bindOf
  exact Pay.pay5_apply pol time tp d

/-- Of two stores, an index the later one's rectangle places reads the later store's value there. -/
theorem canon_two_later {Val : EltTy → Type} [∀ e, Nonempty (Val e)] {s : Shape} {e : EltTy} (r r' : Rect s)
    (w : r.shape.Idx → Val e) (w' : r'.shape.Idx → Val e) (x : r.shape.Idx) (y : s.Idx) (hy : r.emb x = y) :
    View.canon [(⟨r, w⟩ : View.Piece Val s e), ⟨r', w'⟩] y = w x := by
  subst hy
  exact View.canon_cons_emb r w _ x

/-- Of two stores, an index outside the later one's rectangle that the earlier one's rectangle places reads the earlier
    store's value there. -/
theorem canon_two_earlier {Val : EltTy → Type} [∀ e, Nonempty (Val e)] {s : Shape} {e : EltTy} (r r' : Rect s)
    (w : r.shape.Idx → Val e) (w' : r'.shape.Idx → Val e) (x : r'.shape.Idx) (y : s.Idx) (hn : y ∉ r.set)
    (hy : r'.emb x = y) :
    View.canon [(⟨r, w⟩ : View.Piece Val s e), ⟨r', w'⟩] y = w' x := by
  rw [View.canon_cons_of_not_mem (⟨r, w⟩ : View.Piece Val s e) _ hn]
  subst hy
  exact View.canon_cons_emb r' w' _ x

/-- One half's formula in its own coordinate `e` is the formula in `d = o + e`, where `o` is the half's first column:
    every array the half reads through columns `o … o + 1023` is read at column `o + e = d`. -/
theorem half_eq (o : Nat)
    (inbB : ∀ c, (![0, o] : Fin 2 → Nat) c + S128x1024.size c ≤ S128x2048.size c)
    (inbA : ∀ c, (![0, o] : Fin 2 → Nat) c + S1x1024.size c ≤ S1x2048.size c)
    (inbX : ∀ c, (![0, o] : Fin 2 → Nat) c + S1024x1024.size c ≤ S1024x2048.size c)
    (x0 : Vec Ideal S128x8x128 .f32) (x1 : Vec Ideal S1024x2048 .f32) (b : Vec Ideal S128x2048 .f32)
    (a : Vec Ideal S1x2048 .f32) (e : Fin 1024) (d : Fin 2048) (he : d.val = o + e.val) :
    View.ld a (Rect.unit (s := S1x2048) ![0, o] S1x1024.size inbA) (ix2 (0 : Fin 1) e)
        + ∑ r : Fin 1024, View.ld x1 (Rect.unit (s := S1024x2048) ![0, o] S1024x1024.size inbX) (ix2 r e)
            * ∑ tp : Fin 128, x0 (ix3 tp (⟨r.val / 128, by omega⟩ : Fin 8) (⟨r.val % 128, by omega⟩ : Fin 128))
                * View.ld b (Rect.unit (s := S128x2048) ![0, o] S128x1024.size inbB) (ix2 tp e)
      = a (ix2 (0 : Fin 1) d)
        + ∑ r : Fin 1024, x1 (ix2 r d)
            * ∑ tp : Fin 128, x0 (ix3 tp (⟨r.val / 128, by omega⟩ : Fin 8) (⟨r.val % 128, by omega⟩ : Fin 128)) * b (ix2 tp d) := by
  have ha : View.ld a (Rect.unit (s := S1x2048) ![0, o] S1x1024.size inbA) (ix2 (0 : Fin 1) e) = a (ix2 (0 : Fin 1) d) :=
    congrArg a (unit_idx2 ![0, o] S1x1024.size inbA (ix2 (0 : Fin 1) e) (0 : Fin 1) d
      (by show (0 : Nat) = 0 + 0; rfl) (by show d.val = o + e.val; exact he))
  have hx : ∀ r : Fin 1024,
      View.ld x1 (Rect.unit (s := S1024x2048) ![0, o] S1024x1024.size inbX) (ix2 r e) = x1 (ix2 r d) := fun r =>
    congrArg x1 (unit_idx2 ![0, o] S1024x1024.size inbX (ix2 r e) r d
      (by show r.val = 0 + r.val; omega) (by show d.val = o + e.val; exact he))
  have hb : ∀ tp : Fin 128,
      View.ld b (Rect.unit (s := S128x2048) ![0, o] S128x1024.size inbB) (ix2 tp e) = b (ix2 tp d) := fun tp =>
    congrArg b (unit_idx2 ![0, o] S128x1024.size inbB (ix2 tp e) tp d
      (by show tp.val = 0 + tp.val; omega) (by show d.val = o + e.val; exact he))
  rw [ha]
  refine congrArg (a (ix2 (0 : Fin 1) d) + ·) (Finset.sum_congr rfl fun r _ => ?_)
  rw [hx r]
  refine congrArg (x1 (ix2 r d) * ·) (Finset.sum_congr rfl fun tp _ => ?_)
  rw [hb tp]

/-- The running sum after one more block, at coordinate `d`: the old value plus the block's contribution. -/
theorem accStep_apply (x0 : Vec Ideal S128x8x128 .f32) (x1 : Vec Ideal S1024x2048 .f32) (b : Vec Ideal S128x2048 .f32)
    (a : Vec Ideal S1x2048 .f32) (d : Fin 2048) :
    accStep (F := Ideal) x0 x1 b a (ix2 (0 : Fin 1) d)
      = a (ix2 (0 : Fin 1) d) + ∑ r : Fin 1024, x1 (ix2 r d)
          * ∑ tp : Fin 128, x0 (ix3 tp (⟨r.val / 128, by omega⟩ : Fin 8) (⟨r.val % 128, by omega⟩ : Fin 128)) * b (ix2 tp d) := by
  unfold accStep
  by_cases h : d.val < 1024
  · -- the lower half: coordinate `d` itself
    have hmem : ix2 (0 : Fin 1) d ∉ (Rect.unit (s := S1x2048) ![0, 1024] S1x1024.size inb_S1x2048_S1x1024_0_1024).set := by
      rw [Rect.mem_set_unit]
      intro hall
      have h1 : 1024 ≤ d.val := (hall (1 : Fin 2)).1
      omega
    have hemb : (Rect.unit (s := S1x2048) ![0, 0] S1x1024.size inb_S1x2048_S1x1024_0_0).emb (ix2 (0 : Fin 1) (⟨d.val, h⟩ : Fin 1024))
        = ix2 (0 : Fin 1) d :=
      unit_emb2 ![0, 0] S1x1024.size inb_S1x2048_S1x1024_0_0 (ix2 (0 : Fin 1) (⟨d.val, h⟩ : Fin 1024)) (0 : Fin 1) d
        (by show (0 : Nat) = 0 + 0; rfl) (by show d.val = 0 + d.val; omega)
    refine (canon_two_earlier _ _ _ _ (ix2 (0 : Fin 1) (⟨d.val, h⟩ : Fin 1024)) _ hmem hemb).trans ?_
    refine (Pay.pay7_apply _ _ _ _ (⟨d.val, h⟩ : Fin 1024)).trans ?_
    exact half_eq 0 _ _ _ x0 x1 b a (⟨d.val, h⟩ : Fin 1024) d (by show d.val = 0 + d.val; omega)
  · -- the upper half: coordinate `d − 1024` of it
    have hemb : (Rect.unit (s := S1x2048) ![0, 1024] S1x1024.size inb_S1x2048_S1x1024_0_1024).emb
          (ix2 (0 : Fin 1) (⟨d.val - 1024, by omega⟩ : Fin 1024))
        = ix2 (0 : Fin 1) d :=
      unit_emb2 ![0, 1024] S1x1024.size inb_S1x2048_S1x1024_0_1024 (ix2 (0 : Fin 1) (⟨d.val - 1024, by omega⟩ : Fin 1024)) (0 : Fin 1) d
        (by show (0 : Nat) = 0 + 0; rfl) (by show d.val = 1024 + (d.val - 1024); omega)
    refine (canon_two_later _ _ _ _ (ix2 (0 : Fin 1) (⟨d.val - 1024, by omega⟩ : Fin 1024)) _ hemb).trans ?_
    refine (Pay.pay8_apply _ _ _ _ (⟨d.val - 1024, by omega⟩ : Fin 1024)).trans ?_
    exact half_eq 1024 _ _ _ x0 x1 b a (⟨d.val - 1024, by omega⟩ : Fin 1024) d (by show d.val = 1024 + (d.val - 1024); omega)

end Cert.KernelIdeal.StepValue

end
-- ==== Proof.ChainValue.lean ====
/-
  The value of the kernel's accumulator and of its result, over the extended reals.

  After grid point `n` the accumulator holds, at every coordinate `d`, the sum of the blocks `0, …, n` of the kernel's
  arrangement of the weighted sum: the accumulator starts at zero, and each point adds one block — the point's 1024
  pixels, each weighted by the position table and contracted with the bound table over the 128 merged rows. The
  point's input blocks are pieces of the argument arrays (pixel `r` of point `n` is pixel `n·1024 + r` of the image,
  in image row `8·n + r div 128` and column `r mod 128`), and the bound table is polarity bound with time, so the
  point's contribution is exactly the block sum of the specification. By induction on the point the accumulator after
  the last point is the sum of all 16 blocks, and the result is its sign. Addition of extended reals is commutative
  and associative, so no finiteness is needed here.
-/
import proofs.«176864_g4612794876553_cont_8to1_c_351_39_alg».proof.Proof.Chain
import proofs.«176864_g4612794876553_cont_8to1_c_351_39_alg».proof.Proof.Blocks
import proofs.«176864_g4612794876553_cont_8to1_c_351_39_alg».proof.Proof.PayZero
import proofs.«176864_g4612794876553_cont_8to1_c_351_39_alg».proof.Proof.PaySign
import proofs.«176864_g4612794876553_cont_8to1_c_351_39_alg».proof.Proof.StepValue
import proofs.«176864_g4612794876553_cont_8to1_c_351_39_alg».proof.Proof.Spec
import Idealize.ShloMosaic.Lib.ValueIdx
import Mathlib.Algebra.BigOperators.Fin

noncomputable section

open scoped BigOperators

namespace Cert.KernelIdeal.ChainValue

open Idealize.ShloMosaic Idealize.ShloMosaic.TcCoe Idealize.ShloMosaic.ValueIdx Idealize.SL.Sem
open Cert.KernelIdeal Cert.KernelIdeal.Gen Cert.KernelIdeal.Body Cert.KernelIdeal.Chain

variable (m : (ℓ : Loc nD τ sig) → Buf (Elt Ideal) ℓ)

/-- Block `b` of the kernel's sum for a natural number `b`: the block sum for `b < 16`, zero beyond. -/
def blockAt (c : Dev nD) (d : Fin 2048) (b : ℕ) : EReal :=
  if hb : b < 16 then
    Cert.Spec.blockSum (m ((c : Thread nD τ).loc main_arg0)) (m ((c : Thread nD τ).loc main_arg1))
      (m ((c : Thread nD τ).loc main_arg2)) (m ((c : Thread nD τ).loc main_arg3)) ⟨b, hb⟩ d
  else 0

/-- The bound table the kernel carries is polarity bound with time over the merged rows. -/
theorem bindTbl_apply (c : Dev nD) (tp : Fin 128) (d : Fin 2048) :
    bindTbl (F := Ideal) m c (ix2 tp d)
      = Cert.Spec.bind (m ((c : Thread nD τ).loc main_arg1)) (m ((c : Thread nD τ).loc main_arg2)) tp d := by
  unfold bindTbl
  refine (StepValue.bindOf_apply (iblk m c 3 t0) (iblk m c 2 t0) tp d).trans ?_
  exact congrArg₂ (· * ·) (congrFun (Blocks.pol_block m c t0) _) (congrFun (Blocks.time_block m c t0) _)

/-- One grid point's contribution is one block of the kernel's sum. Stated over arbitrary arrays: `x0` is the block
    of the histogram at image rows `8·n, …, 8·n + 7`, `x1` the block of the position table at pixels
    `1024·n, …, 1024·n + 1023`, `bt` the bound table. Pixel `r` of the block is pixel `n·1024 + r` of the image, in
    image row `8·n + r div 128` and column `r mod 128`. -/
theorem step_block (x0 : Vec Ideal S128x8x128 .f32) (x1 : Vec Ideal S1024x2048 .f32) (bt : Vec Ideal S128x2048 .f32)
    (hist : Cert.Spec.Hist) (time : Cert.Spec.Time) (pol : Cert.Spec.Pol) (pos : Cert.Spec.Pos) (n : Fin 16)
    (h0 : ∀ (tp : Fin 128) (hh : Fin 8) (w : Fin 128) (y : Fin 128), y.val = n.val * 8 + hh.val →
      x0 (ix3 tp hh w) = hist (ix4 (Cert.Spec.half tp) (Cert.Spec.par tp) y w))
    (h1 : ∀ (r : Fin 1024) (d : Fin 2048) (k : Fin 16384), k.val = n.val * 1024 + r.val →
      x1 (ix2 r d) = pos (ix2 k d))
    (hb : ∀ (tp : Fin 128) (d : Fin 2048), bt (ix2 tp d) = Cert.Spec.bind time pol tp d) (d : Fin 2048) :
    (∑ r : Fin 1024, x1 (ix2 r d) *
        ∑ tp : Fin 128, x0 (ix3 tp (⟨r.val / 128, by omega⟩ : Fin 8) (⟨r.val % 128, by omega⟩ : Fin 128)) *
          bt (ix2 tp d))
      = Cert.Spec.blockSum hist time pol pos n d := by
  unfold Cert.Spec.blockSum
  refine Finset.sum_congr rfl fun r _ => ?_
  have hw : (⟨r.val % 128, by omega⟩ : Fin 128) = Cert.Spec.colOf (Cert.Spec.pix n r) :=
    Fin.ext (by show r.val % 128 = (n.val * 1024 + r.val) % 128; omega)
  refine congrArg₂ (· * ·) (h1 r d (Cert.Spec.pix n r) rfl)
    (Finset.sum_congr rfl fun tp _ => congrArg₂ (· * ·) ?_ (hb tp d))
  rw [← hw]
  exact h0 tp _ _ (Cert.Spec.rowOf (Cert.Spec.pix n r))
    (by show (n.val * 1024 + r.val) / 128 = n.val * 8 + r.val / 128; omega)

/-- The accumulator after one more grid point, at coordinate `d`: the old value plus the point's block. -/
theorem step_value (c : Dev nD) (n : ℕ) (h : n < cfg0.N) (hb : n < 16) (a : Vec Ideal S1x2048 .f32) (d : Fin 2048) :
    accStep (F := Ideal) (iblk m c 0 ⟨n, h⟩) (iblk m c 1 ⟨n, h⟩) (bindTbl m c) a (ix2 (0 : Fin 1) d)
      = a (ix2 (0 : Fin 1) d) + blockAt m c d n :=
  (StepValue.accStep_apply (iblk m c 0 ⟨n, h⟩) (iblk m c 1 ⟨n, h⟩) (bindTbl m c) a d).trans
    (congrArg (a (ix2 (0 : Fin 1) d) + ·)
      ((step_block (iblk m c 0 ⟨n, h⟩) (iblk m c 1 ⟨n, h⟩) (bindTbl m c)
        (m ((c : Thread nD τ).loc main_arg0)) (m ((c : Thread nD τ).loc main_arg1))
        (m ((c : Thread nD τ).loc main_arg2)) (m ((c : Thread nD τ).loc main_arg3)) ⟨n, hb⟩
        (fun tp hh w y hy => Blocks.hist_block m c ⟨n, h⟩ tp hh w y hy)
        (fun r d k hk => Blocks.pos_block m c ⟨n, h⟩ r d k hk)
        (fun tp d => bindTbl_apply m c tp d) d).trans (by unfold blockAt; rw [dif_pos hb])))

/-- After grid point `n` the accumulator holds the sum of the blocks `0, …, n`. -/
theorem accChain_apply (c : Dev nD) (d : Fin 2048) : ∀ (n : ℕ) (h : n < cfg0.N),
    accChain (F := Ideal) m c n h (ix2 (0 : Fin 1) d) = ∑ b ∈ Finset.range (n + 1), blockAt m c d b
  | 0, h => by
    rw [accChain]
    refine (step_value m c 0 h (by decide) (k0_pay2 (F := Ideal)) d).trans ?_
    rw [Pay.pay2_apply, zero_add, Finset.sum_range_one]
  | n + 1, h => by
    have hb : n + 1 < 16 := by have := hN; omega
    rw [accChain]
    refine (step_value m c (n + 1) h hb (accChain m c n (Nat.lt_of_succ_lt h)) d).trans ?_
    rw [accChain_apply c d n (Nat.lt_of_succ_lt h), Finset.sum_range_succ _ (n + 1)]

/-- The kernel's result at coordinate `d` is the sign of the sum of its 16 blocks. -/
theorem result_apply (c : Dev nD) (d : Fin 2048) :
    Chain.result (F := Ideal) m c (ix2 (0 : Fin 1) d)
      = Ideal.sign (Cert.Spec.kerSum (m ((c : Thread nD τ).loc main_arg0)) (m ((c : Thread nD τ).loc main_arg1))
          (m ((c : Thread nD τ).loc main_arg2)) (m ((c : Thread nD τ).loc main_arg3)) d) := by
  unfold Chain.result
  refine (Pay.pay1_apply _ d).trans (congrArg Ideal.sign ?_)
  rw [accChain_apply m c d 15, Finset.sum_range (fun b => blockAt m c d b)]
  unfold Cert.Spec.kerSum
  refine Finset.sum_congr rfl fun b _ => ?_
  unfold blockAt
  rw [dif_pos b.isLt]

end Cert.KernelIdeal.ChainValue

end
-- ==== Proof.RefOps.lean ====
/-
  The reference program's run, written out as one straight line of host operations.

  The program computes, for every hypervector coordinate `d`, the sign of
  `∑ₜ ∑ₚ ((∑ₙ hist[t,p,n] · pos[n,d]) · pol[p,d]) · time'[t,d]`, where `time'` is the time table with its rows
  taken at the indices `min(0 … 63, 63)` (a `take` along axis 0: the index is first wrapped if negative, then the
  rows are gathered, then rows whose index is out of range are replaced by a constant). The two outlined
  functions (the wrap's `where`, inside the `take`) are listed inline where they are called, over the buffers of that
  call, so the whole program is a list of 38 operations. Each stage of the composed value is named below, so that
  later modules can read the stages one at a time.
-/
import proofs.«176864_g4612794876553_cont_8to1_c_351_39_alg».proof.ReferenceIdeal
import proofs.«176864_g4612794876553_cont_8to1_c_351_39_alg».proof.Proof.Gen.ReferenceIdeal
import Idealize.ShloMosaic.Lib.StableHlo.Run
import Idealize.ShloMosaic.PureOps.Ideal

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Cert.ReferenceIdeal.Facts]

/-! ## The stages of the value -/

/-- The row indices `min(t, 63)` for `t = 0 … 63`. -/
def rowIdx : Vec Ideal S64 .i32 :=
  minsi (iotaInDim S64 32 0) (broadcastInDim S64 ![] bcast_S_S64 (constantI S_ 32 63#32))

/-- A negative index counts from the end: `i + 64` where `i < 0`, else `i`. -/
def wrapIdx (i : Vec Ideal S64 .i32) : Vec Ideal S64 .i32 :=
  select (cmpi .slt i (broadcastInDim S64 ![] bcast_S_S64 (constantI S_ 32 0#32)))
    (addi i (broadcastInDim S64 ![] bcast_S_S64 (constantI S_ 32 64#32))) i

/-- The indices as a column `[64, 1]`: one start index per gathered row. -/
def colIdx (i : Vec Ideal S64 .i32) : Vec Ideal S64x1 .i32 :=
  broadcastInDim S64x1 ![0] bcast_S64_S64x1_0 i

/-- Per row: is the start index inside `[0, 63]`? -/
def inRange (j : Vec Ideal S64x1 .i32) : Vec Ideal S64 .i1 :=
  Host.reduce IntOp.andi
    (andi (cmpi .sge j (broadcastInDim S64x1 ![] bcast_S_S64x1 (constantI S_ 32 0#32)))
      (cmpi .sle j (broadcastInDim S64x1 ![0, 1] bcast_S1x1_S64x1_0_1
        (broadcastInDim S1x1 ![1] bcast_S1_S1x1_1 (constantI S1 32 63#32)))))
    (constantI S_ 1 1#1) reducesTo_S64x1_S64_d1 h_S_

/-- The rows of `time` taken at the column of indices `j`; a row whose index is out of range is filled with a constant. -/
def takeRows (time : FVec Ideal S64x2048 .f32) (j : Vec Ideal S64x1 .i32) : FVec Ideal S64x2048 .f32 :=
  select (broadcastInDim S64x2048 ![0] bcast_S64_S64x2048_0 (inRange j))
    (Host.gather gather_S64x2048_S64x1_S64x2048_1_0_n_n_0_1_12048 time j)
    (broadcastInDim S64x2048 ![] bcast_S_S64x2048 (constant (F := Ideal) S_ .f32 0x7FC00000#32))

/-- The time table as the program uses it. -/
def timeHv (time : FVec Ideal S64x2048 .f32) : FVec Ideal S64x2048 .f32 :=
  takeRows time (colIdx (wrapIdx rowIdx))

/-- The histogram with its two image axes merged: `[64, 2, 16384]`. -/
def flat (hist : FVec Ideal S64x2x128x128 .f32) : FVec Ideal S64x2x16384 .f32 :=
  shapeCast S64x2x16384 hist shapeCasts_S64x2x128x128_S64x2x16384

/-- The pixels contracted against the position table: `[64, 2, 2048]`. -/
def proj (hist : FVec Ideal S64x2x128x128 .f32) (pos : FVec Ideal S16384x2048 .f32) : FVec Ideal S64x2x2048 .f32 :=
  Host.dotGeneral (F := Ideal) dot_S64x2x16384_S16384x2048_S64x2x2048_2_0_01_1_n_n none (flat hist) pos

/-- The polarity table repeated along the time axis: `[64, 2, 2048]`. -/
def polB (pol : FVec Ideal S2x2048 .f32) : FVec Ideal S64x2x2048 .f32 :=
  broadcastInDim S64x2x2048 ![0, 1, 2] bcast_S1x2x2048_S64x2x2048_0_1_2
    (broadcastInDim S1x2x2048 ![1, 2] bcast_S2x2048_S1x2x2048_1_2 pol)

/-- A time table repeated along the polarity axis: `[64, 2, 2048]`. -/
def timeB (tm : FVec Ideal S64x2048 .f32) : FVec Ideal S64x2x2048 .f32 :=
  broadcastInDim S64x2x2048 ![0, 1, 2] bcast_S64x1x2048_S64x2x2048_0_1_2
    (broadcastInDim S64x1x2048 ![0, 2] bcast_S64x2048_S64x1x2048_0_2 tm)

/-- The bound terms `(proj · pol) · time'`, before the sum over `(t, p)`. -/
def bound (hist : FVec Ideal S64x2x128x128 .f32) (time : FVec Ideal S64x2048 .f32) (pol : FVec Ideal S2x2048 .f32)
    (pos : FVec Ideal S16384x2048 .f32) : FVec Ideal S64x2x2048 .f32 :=
  mulf (mulf (proj hist pos) (polB pol)) (timeB (timeHv time))

/-- The sum over time and polarity, from zero. -/
def total (hist : FVec Ideal S64x2x128x128 .f32) (time : FVec Ideal S64x2048 .f32) (pol : FVec Ideal S2x2048 .f32)
    (pos : FVec Ideal S16384x2048 .f32) : FVec Ideal S2048 .f32 :=
  Host.reduceAdd (F := Ideal) (bound hist time pol pos) (constant (F := Ideal) S_ .f32 0x00000000#32)
    reducesTo_S64x2x2048_S2048_d0_1 h_S_

/-- The program's result: the sign of the sum, coordinate by coordinate. -/
def refOut [Cert.ReferenceIdeal.Facts] (hist : FVec Ideal S64x2x128x128 .f32) (time : FVec Ideal S64x2048 .f32) (pol : FVec Ideal S2x2048 .f32)
    (pos : FVec Ideal S16384x2048 .f32) : FVec Ideal S2048 .f32 :=
  Host.sign (F := Ideal) (total hist time pol pos)

/-! ## The program as a list of operations -/

variable {F : FTy → Type} [FloatOps F]

/-- The 38 operations in order: four for the indices, twenty-three for the `take` (of which one is the wrap's select),
    eleven for the contraction, the two weightings, the sum and the sign. -/
abbrev ops : List (HloOp τ sig (Elt F)) :=
  [ nullary main_v0 (iotaInDim S64 32 0),
    nullary main_c (constantI S_ 32 63#32),
    unary main_c main_v1 (broadcastInDim S64 ![] bcast_S_S64 : (⟨S_, .i32⟩ : BufTy).Contents (Elt F) → (⟨S64, .i32⟩ : BufTy).Contents (Elt F)),
    binary main_v0 main_v1 main_v2 (minsi : (⟨S64, .i32⟩ : BufTy).Contents (Elt F) → (⟨S64, .i32⟩ : BufTy).Contents (Elt F) → (⟨S64, .i32⟩ : BufTy).Contents (Elt F)),
    TRef.nullary main_call0.c (constantI S_ 32 0#32),
    TRef.unary main_call0.c main_call0.v0 (broadcastInDim S64 ![] bcast_S_S64),
    TRef.binary (.of main_v2) main_call0.v0 main_call0.v1 (cmpi .slt),
    TRef.nullary main_call0.c_0 (constantI S_ 32 64#32),
    TRef.unary main_call0.c_0 main_call0.v2 (broadcastInDim S64 ![] bcast_S_S64),
    TRef.binary (.of main_v2) main_call0.v2 main_call0.v3 addi,
    TRef.ternary main_call0.v1 main_call0.v3 (.of main_v2) main_call0.call0.v0 select,
    TRef.unary main_call0.call0.v0 main_call0.v5 (broadcastInDim S64x1 ![0] bcast_S64_S64x1_0),
    TRef.nullary main_call0.c_1 (constantI S1 32 63#32),
    TRef.nullary main_call0.c_2 (constantI S_ 32 0#32),
    TRef.unary main_call0.c_2 main_call0.v6 (broadcastInDim S64x1 ![] bcast_S_S64x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S64x1 ![0, 1] bcast_S1x1_S64x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S64x1_S64_d1 h_S_),
    TRef.binary (.of main_arg1) main_call0.v5 main_call0.v13 (fun x i => Host.gather gather_S64x2048_S64x1_S64x2048_1_0_n_n_0_1_12048 x i),
    TRef.unary main_call0.v12 main_call0.v14 (broadcastInDim S64x2048 ![0] bcast_S64_S64x2048_0),
    TRef.nullary main_call0.cst (constant S_ .f32 0x7FC00000#32),
    TRef.unary main_call0.cst main_call0.v15 (broadcastInDim S64x2048 ![] bcast_S_S64x2048),
    TRef.ternary main_call0.v14 main_call0.v13 main_call0.v15 main_call0.v16 select,
    reshape main_arg0 main_v4 rfl shapeCasts_S64x2x128x128_S64x2x16384,
    binary main_v4 main_arg3 main_v5 ((fun l r => Host.dotGeneral dot_S64x2x16384_S16384x2048_S64x2x2048_2_0_01_1_n_n none l r) : (⟨S64x2x16384, .f32⟩ : BufTy).Contents (Elt F) → (⟨S16384x2048, .f32⟩ : BufTy).Contents (Elt F) → (⟨S64x2x2048, .f32⟩ : BufTy).Contents (Elt F)),
    unary main_arg2 main_v6 (broadcastInDim S1x2x2048 ![1, 2] bcast_S2x2048_S1x2x2048_1_2 : (⟨S2x2048, .f32⟩ : BufTy).Contents (Elt F) → (⟨S1x2x2048, .f32⟩ : BufTy).Contents (Elt F)),
    unary main_v6 main_v7 (broadcastInDim S64x2x2048 ![0, 1, 2] bcast_S1x2x2048_S64x2x2048_0_1_2 : (⟨S1x2x2048, .f32⟩ : BufTy).Contents (Elt F) → (⟨S64x2x2048, .f32⟩ : BufTy).Contents (Elt F)),
    binary main_v5 main_v7 main_v8 (mulf : (⟨S64x2x2048, .f32⟩ : BufTy).Contents (Elt F) → (⟨S64x2x2048, .f32⟩ : BufTy).Contents (Elt F) → (⟨S64x2x2048, .f32⟩ : BufTy).Contents (Elt F)),
    unary main_v3 main_v9 (broadcastInDim S64x1x2048 ![0, 2] bcast_S64x2048_S64x1x2048_0_2 : (⟨S64x2048, .f32⟩ : BufTy).Contents (Elt F) → (⟨S64x1x2048, .f32⟩ : BufTy).Contents (Elt F)),
    unary main_v9 main_v10 (broadcastInDim S64x2x2048 ![0, 1, 2] bcast_S64x1x2048_S64x2x2048_0_1_2 : (⟨S64x1x2048, .f32⟩ : BufTy).Contents (Elt F) → (⟨S64x2x2048, .f32⟩ : BufTy).Contents (Elt F)),
    binary main_v8 main_v10 main_v11 (mulf : (⟨S64x2x2048, .f32⟩ : BufTy).Contents (Elt F) → (⟨S64x2x2048, .f32⟩ : BufTy).Contents (Elt F) → (⟨S64x2x2048, .f32⟩ : BufTy).Contents (Elt F)),
    nullary main_cst (constant S_ .f32 0x00000000#32),
    binary main_v11 main_cst main_v12 ((fun x v => Host.reduceAdd x v reducesTo_S64x2x2048_S2048_d0_1 h_S_) : (⟨S64x2x2048, .f32⟩ : BufTy).Contents (Elt F) → (⟨S_, .f32⟩ : BufTy).Contents (Elt F) → (⟨S2048, .f32⟩ : BufTy).Contents (Elt F)),
    unary main_v12 main_v13 (Host.sign : (⟨S2048, .f32⟩ : BufTy).Contents (Elt F) → (⟨S2048, .f32⟩ : BufTy).Contents (Elt F)) ]

set_option maxRecDepth 2048 in
/-- The program is that straight line: the two outlined functions unfolded at their calls, and the sequencing
    re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., binary_bufs_sub .., unary_bufs_sub .., unary_bufs_sub .., binary_bufs_sub .., unary_bufs_sub ..,
    unary_bufs_sub .., binary_bufs_sub .., nullary_bufs_sub .., binary_bufs_sub .., unary_bufs_sub ..⟩

end Cert.ReferenceIdeal.RefValue

end
-- ==== Proof.RefRun.lean ====
/-
  The reference program's run read back: from any memory, the program terminates with the result buffer holding
  `refOut` of the four argument buffers' contents, and the arguments unchanged. The program is a straight line of host
  operations, so what a buffer holds at the end is a fold of the operations' results over the launch contents; the fold
  is read at the result buffer and at each argument buffer.
-/
import proofs.«176864_g4612794876553_cont_8to1_c_351_39_alg».proof.Proof.RefOps

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable [Cert.ReferenceIdeal.Facts]

/-! ## Reading the line back -/

attribute [local irreducible] Host.reduce Host.gather Host.reduceAdd Host.sign in
set_option maxRecDepth 8192 in
/-- What the line leaves at the result buffer is `refOut` of the four argument buffers' contents: the fold over the
    operations unrolled, each operation's result read at its own buffer and passed over at every other; an outlined
    function's operation moves its operands and result between a buffer's type and the value's type, which are the
    same type, so those moves are the identity. -/
theorem out_eq (V : Valuation τ sig (Elt Ideal)) :
    after ops V (main_v13 : DevRef τ sig)
      = refOut (V (main_arg0 : DevRef τ sig)) (V (main_arg1 : DevRef τ sig)) (V (main_arg2 : DevRef τ sig))
          (V (main_arg3 : DevRef τ sig)) := by
  after_results_simp
  simp only [TRef.ofBuf, TRef.toBuf, cast_eq]
  rfl

theorem arg0_eq (V : Valuation τ sig (Elt Ideal)) :
    after ops V (main_arg0 : DevRef τ sig) = V (main_arg0 : DevRef τ sig) := by
  simp only [after_cons, after_nil]
  rfl

theorem arg1_eq (V : Valuation τ sig (Elt Ideal)) :
    after ops V (main_arg1 : DevRef τ sig) = V (main_arg1 : DevRef τ sig) := by
  simp only [after_cons, after_nil]
  rfl

theorem arg2_eq (V : Valuation τ sig (Elt Ideal)) :
    after ops V (main_arg2 : DevRef τ sig) = V (main_arg2 : DevRef τ sig) := by
  simp only [after_cons, after_nil]
  rfl

theorem arg3_eq (V : Valuation τ sig (Elt Ideal)) :
    after ops V (main_arg3 : DevRef τ sig) = V (main_arg3 : DevRef τ sig) := by
  simp only [after_cons, after_nil]
  rfl

/-- On every device, from any memory with zero counters: every weakly fair execution of the program terminates with the
    result buffer at `refOut` of the arguments' launch contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v13)
          = refOut (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg2))
              (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run defs _ _).mono (fun _ h c => ⟨(h c main_v13).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefValue

end
-- ==== Proof.LibGatherRows.lean ====
/-
  The host's gather, for row gathers, read at an index.

  A ROW GATHER has start indices of shape [E, 1] holding one row number each; that number names the operand's
  axis 0, which is collapsed; the operand's remaining axes (none, or one axis of C columns) are taken whole. Result
  row a is then the operand's row (rowOf G a): the start index G (a, 0) read signed and clamped into [0, N - 1], as
  the gather clamps every start index so that the slice fits. So

    result (a)    = operand (rowOf G a)         (no columns)
    result (a, c) = operand (rowOf G a, c)      (C columns)

  for any sizes N (operand rows, positive), E (result rows), C (columns) and any index width. The lemmas are stated
  for the dimension numbers as a record built from any proof of their well-formedness (`dims1 wf`, `dims2 wf`); a
  program's own record of the same lists is that record, so they apply to it by unification.
-/
import Idealize.ShloMosaic.Lib.ValueIdx

noncomputable section

namespace Cert.GatherRows

open Idealize.ShloMosaic Idealize.ShloMosaic.ValueIdx

variable {α : Type} {N E C w : Nat}

/-- The operand row a start index names: read signed, clamped into [0, N - 1]. -/
def rowOf (hN : 0 < N) (G : IVec ⟨2, ![E, 1]⟩ w) (a : Fin E) : Fin N :=
  ⟨min (G (ix2 a 0)).toInt.toNat (N - 1), by omega⟩

/-- A start index that reads as a row number in range names that row. -/
theorem rowOf_eq (hN : 0 < N) (G : IVec ⟨2, ![E, 1]⟩ w) (a : Fin E) (r : Fin N) (h : (G (ix2 a 0)).toInt = (r.val : ℤ)) :
    rowOf hN G a = r := by
  apply Fin.ext
  have := r.isLt
  show min (G (ix2 a 0)).toInt.toNat (N - 1) = r.val
  rw [h]
  simp only [Int.toNat_natCast]
  omega

/-- The 1-D gather's dimension numbers, over any sizes. -/
abbrev dims1 (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ := ⟨[], [0], [], [], [0], 1, ![1], wf⟩

/-- The row gather's dimension numbers, over any sizes. -/
abbrev dims2 (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ := ⟨[1], [0], [], [], [0], 1, ![1, C], wf⟩

/-- THE 1-D GATHER READ AT a: the operand at the row the start index names. -/
theorem gather1_apply (hN : 0 < N) (wf) (x : (⟨1, ![N]⟩ : Shape).Idx → α) (G : IVec ⟨2, ![E, 1]⟩ w) (a : Fin E) :
    Host.gather (dims1 (N := N) (E := E) wf) x G (ix1 a) = x (ix1 (rowOf hN G a)) := by
  unfold Host.gather
  congr 1
  funext b
  obtain rfl : b = 0 := Subsingleton.elim _ _
  refine Fin.ext ?_
  show (dims1 (N := N) (E := E) wf).start (ix1 a) G 0 + (dims1 (N := N) (E := E) wf).batchCoord (ix1 a) 0
      + (dims1 (N := N) (E := E) wf).offCoord (ix1 a) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (dims1 (N := N) (E := E) wf).startIndexMap from List.mem_singleton.mpr rfl)]
  have hsi : (dims1 (N := N) (E := E) wf).siIdx (ix1 a) ⟨List.idxOf (0 : Fin 1) (dims1 (N := N) (E := E) wf).startIndexMap,
      List.idxOf_lt_length_iff.2 (List.mem_singleton.mpr rfl)⟩ = ix2 a 0 := by
    funext c; refine Fin.ext ?_
    match c with
    | ⟨0, _⟩ => rfl
    | ⟨1, _⟩ => rfl
  rw [hsi]
  rfl

/-- THE ROW GATHER READ AT (a, c): the operand at the row the start index names, same column. -/
theorem gather2_apply (hN : 0 < N) (wf) (x : (⟨2, ![N, C]⟩ : Shape).Idx → α) (G : IVec ⟨2, ![E, 1]⟩ w) (a : Fin E) (c : Fin C) :
    Host.gather (dims2 (N := N) (E := E) (C := C) wf) x G (ix2 a c) = x (ix2 (rowOf hN G a) c) := by
  unfold Host.gather
  congr 1
  funext b
  refine Fin.ext ?_
  match b with
  | ⟨0, _⟩ =>
    -- the collapsed row axis: the clamped start index, no batching coordinate, no offset
    show (dims2 (N := N) (E := E) (C := C) wf).start (ix2 a c) G 0
        + (dims2 (N := N) (E := E) (C := C) wf).batchCoord (ix2 a c) 0
        + (dims2 (N := N) (E := E) (C := C) wf).offCoord (ix2 a c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims2 (N := N) (E := E) (C := C) wf).startIndexMap from List.mem_singleton.mpr rfl)]
    have hsi : (dims2 (N := N) (E := E) (C := C) wf).siIdx (ix2 a c)
        ⟨List.idxOf (0 : Fin 2) (dims2 (N := N) (E := E) (C := C) wf).startIndexMap,
          List.idxOf_lt_length_iff.2 (List.mem_singleton.mpr rfl)⟩ = ix2 a 0 := by
      funext e; refine Fin.ext ?_
      match e with
      | ⟨0, _⟩ => rfl
      | ⟨1, _⟩ => rfl
    rw [hsi]
    rfl
  | ⟨1, _⟩ =>
    -- the column axis, taken whole: start 0, no batching coordinate, the result's column as offset
    show (dims2 (N := N) (E := E) (C := C) wf).start (ix2 a c) G 1
        + (dims2 (N := N) (E := E) (C := C) wf).batchCoord (ix2 a c) 1
        + (dims2 (N := N) (E := E) (C := C) wf).offCoord (ix2 a c) 1 = c.val
    rw [GatherDims.batchCoord_eq_zero _ _ _ List.not_mem_nil]
    have hst : (dims2 (N := N) (E := E) (C := C) wf).start (ix2 a c) G 1 = 0 := by
      unfold GatherDims.start
      rw [dif_neg (by simp)]
    have hk : (1 : Fin 2) ∈ (dims2 (N := N) (E := E) (C := C) wf).sKept :=
      (GatherDims.mem_sKept _ _).mpr ⟨by simp, List.not_mem_nil⟩
    have hoff : (dims2 (N := N) (E := E) (C := C) wf).offCoord (ix2 a c) 1 = c.val := by
      unfold GatherDims.offCoord
      rw [dif_pos hk]
      rfl
    rw [hst, hoff]
    simp

end Cert.GatherRows

end
-- ==== Proof.RefIndex.lean ====
/-
  The time table as the program uses it is the time table itself.

  The program takes the rows of `time` at the indices `min(t, 63)`, `t = 0 … 63`: that is row `t` itself. The `take` first
  wraps a negative index (none is negative), gathers the rows at the indices clamped into `[0, 63]` (each already is
  inside), and replaces a row by a constant where the index was out of range (none was). Each of these steps is read
  at an index here; the facts about the 64 index words are checked by computation.
-/
import proofs.«176864_g4612794876553_cont_8to1_c_351_39_alg».proof.Proof.RefOps
import proofs.«176864_g4612794876553_cont_8to1_c_351_39_alg».proof.Proof.LibGatherRows
import Idealize.ShloMosaic.Lib.Pipeline.Value
import Idealize.ShloMosaic.Lib.IdealHost
import Idealize.ShloMosaic.PureOps.Reduce

noncomputable section

namespace Cert.ReferenceIdeal.RefValue

open Cert.ReferenceIdeal Idealize.ShloMosaic Idealize.ShloMosaic.ValueIdx
open Cert.ReferenceIdeal.Facts₀

/-! ## The 64 index words -/

/-- `min(t, 63) = t` on `0 … 63`. -/
theorem min_63 : ∀ t : Fin 64, IntOp.minsi (BitVec.ofNat 32 t.val) 63#32 = BitVec.ofNat 32 t.val := by decide

/-- None of `0 … 63` is negative, so none is wrapped. -/
theorem wrap_none : ∀ t : Fin 64,
    Scalar.select (IntOp.cmpi .slt (BitVec.ofNat 32 t.val) 0#32) (IntOp.addi (BitVec.ofNat 32 t.val) 64#32)
      (BitVec.ofNat 32 t.val) = BitVec.ofNat 32 t.val := by decide

/-- Each of `0 … 63` lies in `[0, 63]`. -/
theorem within : ∀ t : Fin 64,
    IntOp.andi (IntOp.cmpi .sge (BitVec.ofNat 32 t.val) 0#32) (IntOp.cmpi .sle (BitVec.ofNat 32 t.val) 63#32) = 1#1 := by
  decide

/-- Read signed, the word of `t` is `t`. -/
theorem toInt_word : ∀ t : Fin 64, (BitVec.ofNat 32 t.val).toInt = (t.val : ℤ) := by decide

variable [Cert.ReferenceIdeal.Facts]

/-! ## The index stages read at an index -/

/-- Row index `t` is the word of `t`. -/
theorem rowIdx_apply (t : Fin 64) : rowIdx (ix1 t) = BitVec.ofNat 32 t.val := by
  show IntOp.minsi (BitVec.ofNat 32 t.val) 63#32 = _
  exact min_63 t

/-- The wrap leaves an index that is the word of `t` as it is. -/
theorem wrapIdx_apply (i : Vec Ideal S64 .i32) (t : Fin 64) (hi : i (ix1 t) = BitVec.ofNat 32 t.val) :
    wrapIdx i (ix1 t) = BitVec.ofNat 32 t.val := by
  show Scalar.select (IntOp.cmpi .slt (i (ix1 t)) 0#32) (IntOp.addi (i (ix1 t)) 64#32) (i (ix1 t)) = _
  rw [hi]
  exact wrap_none t

/-- The column of indices holds, in row `t`, index `t`. -/
theorem colIdx_apply (i : Vec Ideal S64 .i32) (t : Fin 64) (z : Fin 1) : colIdx i (ix2 t z) = i (ix1 t) := by
  unfold colIdx
  refine broadcastInDim_apply _ _ i (ix2 t z) (ix1 t) fun a => ?_
  match a with
  | ⟨0, _⟩ => rfl

/-! ## The in-range test -/

/-- A fold by `and` from 1 over words that are all 1 is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A reduction by `and`, from 1, of an array whose every element is 1, is 1 everywhere. -/
theorem reduce_andi_of_all {s t u : Shape} {axes : List (Fin s.rank)} (x : s.Idx → BitVec 1) (init : u.Idx → BitVec 1)
    (h : s.ReducesTo axes t) (hu : 0 < u.numel) (j : t.Idx) (hinit : ∀ k, init k = 1#1) (hx : ∀ i, x i = 1#1) :
    Host.reduce IntOp.andi x init h hu j = 1#1 := by
  rw [Host.reduce_eq_foldl, hinit]
  exact foldl_andi_one x hx _

/-- A column of indices that holds index `t` in row `t` is in range in every row. -/
theorem inRange_apply (j : Vec Ideal S64x1 .i32) (hj : ∀ (t : Fin 64) (z : Fin 1), j (ix2 t z) = BitVec.ofNat 32 t.val)
    (t : Fin 64) : inRange j (ix1 t) = 1#1 := by
  unfold inRange
  refine reduce_andi_of_all _ _ _ _ _ (fun _ => rfl) fun i => ?_
  obtain ⟨a, z, rfl⟩ : ∃ (a : Fin 64) (z : Fin 1), i = ix2 a z := ⟨i 0, i 1, eq_ix2 i⟩
  show IntOp.andi (IntOp.cmpi .sge (j (ix2 a z)) 0#32) (IntOp.cmpi .sle (j (ix2 a z)) 63#32) = 1#1
  rw [hj]
  exact within a

/-! ## The rows taken -/

/-- Taking the rows of `time` at a column of indices that holds index `t` in row `t` gives `time` back. -/
theorem takeRows_apply (time : FVec Ideal S64x2048 .f32) (j : Vec Ideal S64x1 .i32)
    (hj : ∀ (t : Fin 64) (z : Fin 1), j (ix2 t z) = BitVec.ofNat 32 t.val) (t : Fin 64) (d : Fin 2048) :
    takeRows time j (ix2 t d) = time (ix2 t d) := by
  unfold takeRows
  rw [select_apply]
  have hb : broadcastInDim S64x2048 ![0] bcast_S64_S64x2048_0 (inRange j) (ix2 t d) = inRange j (ix1 t) :=
    broadcastInDim_apply _ _ _ (ix2 t d) (ix1 t) fun a => by
      match a with
      | ⟨0, _⟩ => rfl
  rw [hb, inRange_apply j hj t, select_one]
  refine (Cert.GatherRows.gather2_apply (N := 64) (E := 64) (C := 2048) (by decide)
    gather_S64x2048_S64x1_S64x2048_1_0_n_n_0_1_12048_wf time j t d).trans ?_
  rw [Cert.GatherRows.rowOf_eq _ j t t (by rw [hj]; exact toInt_word t)]

/-- The time table as the program uses it, read at `(t, d)`: the time table there. -/
theorem timeHv_apply (time : FVec Ideal S64x2048 .f32) (t : Fin 64) (d : Fin 2048) :
    timeHv time (ix2 t d) = time (ix2 t d) :=
  takeRows_apply time _ (fun a z => by rw [colIdx_apply, wrapIdx_apply _ _ (rowIdx_apply a)]) t d

end Cert.ReferenceIdeal.RefValue

end
-- ==== Proof.RefStages.lean ====
/-
  The float stages of the reference, each read at an index.

  The flattened histogram at `(t, p, n)` is the histogram at `(t, p, n div 128, n mod 128)`; the contraction at
  `(t, p, d)` is `∑ₙ flat[t,p,n] · pos[n,d]`; the two broadcasts read `pol[p,d]` and the time table at `(t,d)`; the sum
  over the axes `t` and `p`, from zero, is the double sum over `t` and `p`.
-/
import proofs.«176864_g4612794876553_cont_8to1_c_351_39_alg».proof.Proof.RefOps
import proofs.«176864_g4612794876553_cont_8to1_c_351_39_alg».proof.Proof.Spec
import Idealize.ShloMosaic.Lib.Pipeline.Value
import Idealize.ShloMosaic.Lib.IdealHost
import Idealize.ShloMosaic.PureOps.Ideal.Laws

noncomputable section

namespace Cert.ReferenceIdeal.RefValue

open Cert.ReferenceIdeal Idealize.ShloMosaic Idealize.ShloMosaic.ValueIdx
open Cert.ReferenceIdeal.Facts₀
open scoped BigOperators

variable [Cert.ReferenceIdeal.Facts]

/-! ## The reshape -/

/-- Pixel `n` of the flattened histogram is pixel `(n div 128, n mod 128)` of the image. -/
theorem flat_apply (hist : FVec Ideal S64x2x128x128 .f32) (t : Fin 64) (p : Fin 2) (n : Fin 16384) :
    flat hist (ix3 t p n) = hist (ix4 t p (Cert.Spec.rowOf n) (Cert.Spec.colOf n)) := by
  unfold flat
  refine shapeCast_apply hist _ (ix3 t p n) (ix4 t p (Cert.Spec.rowOf n) (Cert.Spec.colOf n)) ?_
  rw [Shape.rowMajor_val_four, Shape.rowMajor_val_three]
  show ((t.val * 2 + p.val) * 128 + n.val / 128) * 128 + n.val % 128 = (t.val * 2 + p.val) * 16384 + n.val
  omega

/-! ## The contraction -/

/-- The left operand's index at output `i` and contraction position `q`: `i`'s first two coordinates, then `q`. -/
theorem lhs_0 (i : S64x2x2048.Idx) (q : dot_S64x2x16384_S16384x2048_S64x2x2048_2_0_01_1_n_n.contr.Idx) : (dot_S64x2x16384_S16384x2048_S64x2x2048_2_0_01_1_n_n.lhsIdx i q 0).val = (i 0).val := by
  unfold DotDims.lhsIdx
  have hb : ¬(0 : Fin S64x2x16384.rank) ∈ dot_S64x2x16384_S16384x2048_S64x2x2048_2_0_01_1_n_n.lhsBatch := by
    show ¬(0 : Fin 3) ∈ ([] : List (Fin 3)); exact List.not_mem_nil
  have hn : (0 : Fin S64x2x16384.rank) ∈ dot_S64x2x16384_S16384x2048_S64x2x2048_2_0_01_1_n_n.lhsNonContracting := by
    show (0 : Fin 3) ∈ ([0, 1] : List (Fin 3)); decide
  rw [dif_neg hb, dif_pos hn]
  rfl

theorem lhs_1 (i : S64x2x2048.Idx) (q : dot_S64x2x16384_S16384x2048_S64x2x2048_2_0_01_1_n_n.contr.Idx) : (dot_S64x2x16384_S16384x2048_S64x2x2048_2_0_01_1_n_n.lhsIdx i q 1).val = (i 1).val := by
  unfold DotDims.lhsIdx
  have hb : ¬(1 : Fin S64x2x16384.rank) ∈ dot_S64x2x16384_S16384x2048_S64x2x2048_2_0_01_1_n_n.lhsBatch := by
    show ¬(1 : Fin 3) ∈ ([] : List (Fin 3)); exact List.not_mem_nil
  have hn : (1 : Fin S64x2x16384.rank) ∈ dot_S64x2x16384_S16384x2048_S64x2x2048_2_0_01_1_n_n.lhsNonContracting := by
    show (1 : Fin 3) ∈ ([0, 1] : List (Fin 3)); decide
  rw [dif_neg hb, dif_pos hn]
  rfl

theorem lhs_2 (i : S64x2x2048.Idx) (q : dot_S64x2x16384_S16384x2048_S64x2x2048_2_0_01_1_n_n.contr.Idx) :
    (dot_S64x2x16384_S16384x2048_S64x2x2048_2_0_01_1_n_n.lhsIdx i q 2).val = (q ⟨0, by decide⟩).val :=
  dot_S64x2x16384_S16384x2048_S64x2x2048_2_0_01_1_n_n.lhsIdx_val_of_single rfl i q

/-- The right operand's index: `q`, then `i`'s last coordinate. -/
theorem rhs_0 (i : S64x2x2048.Idx) (q : dot_S64x2x16384_S16384x2048_S64x2x2048_2_0_01_1_n_n.contr.Idx) :
    (dot_S64x2x16384_S16384x2048_S64x2x2048_2_0_01_1_n_n.rhsIdx i q 0).val = (q ⟨0, by decide⟩).val :=
  dot_S64x2x16384_S16384x2048_S64x2x2048_2_0_01_1_n_n.rhsIdx_val_of_single rfl i q

theorem rhs_1 (i : S64x2x2048.Idx) (q : dot_S64x2x16384_S16384x2048_S64x2x2048_2_0_01_1_n_n.contr.Idx) : (dot_S64x2x16384_S16384x2048_S64x2x2048_2_0_01_1_n_n.rhsIdx i q 1).val = (i 2).val := by
  unfold DotDims.rhsIdx
  have hb : ¬(1 : Fin S16384x2048.rank) ∈ dot_S64x2x16384_S16384x2048_S64x2x2048_2_0_01_1_n_n.rhsBatch := by
    show ¬(1 : Fin 2) ∈ ([] : List (Fin 2)); exact List.not_mem_nil
  have hn : (1 : Fin S16384x2048.rank) ∈ dot_S64x2x16384_S16384x2048_S64x2x2048_2_0_01_1_n_n.rhsNonContracting := by
    show (1 : Fin 2) ∈ ([1] : List (Fin 2)); decide
  rw [dif_neg hb, dif_pos hn]
  rfl

/-- The contraction at `(t, p, d)`: the sum over the pixels of the flattened histogram times the position table. -/
theorem proj_apply (hist : FVec Ideal S64x2x128x128 .f32) (pos : FVec Ideal S16384x2048 .f32) (t : Fin 64) (p : Fin 2)
    (d : Fin 2048) :
    proj hist pos (ix3 t p d) = ∑ n : Fin 16384, flat hist (ix3 t p n) * pos (ix2 n d) := by
  unfold proj
  generalize flat hist = y
  simp only [Host.dotGeneral]
  rw [Ideal.dotGeneral_apply, ← Equiv.sum_comp (contrEquiv1 dot_S64x2x16384_S16384x2048_S64x2x2048_2_0_01_1_n_n 16384 rfl rfl).symm]
  refine Finset.sum_congr rfl fun k _ => ?_
  have hk := contrEquiv1_symm_val dot_S64x2x16384_S16384x2048_S64x2x2048_2_0_01_1_n_n 16384 rfl rfl k
  have el : dot_S64x2x16384_S16384x2048_S64x2x2048_2_0_01_1_n_n.lhsIdx (ix3 t p d) ((contrEquiv1 dot_S64x2x16384_S16384x2048_S64x2x2048_2_0_01_1_n_n 16384 rfl rfl).symm k) = ix3 t p k :=
    funext fun a => Fin.ext (by
      match a with
      | ⟨0, _⟩ => exact lhs_0 _ _
      | ⟨1, _⟩ => exact lhs_1 _ _
      | ⟨2, _⟩ => exact (lhs_2 _ _).trans hk)
  have er : dot_S64x2x16384_S16384x2048_S64x2x2048_2_0_01_1_n_n.rhsIdx (ix3 t p d) ((contrEquiv1 dot_S64x2x16384_S16384x2048_S64x2x2048_2_0_01_1_n_n 16384 rfl rfl).symm k) = ix2 k d :=
    funext fun a => Fin.ext (by
      match a with
      | ⟨0, _⟩ => exact (rhs_0 _ _).trans hk
      | ⟨1, _⟩ => exact rhs_1 _ _)
  rw [el, er]

/-! ## The two broadcasts -/

/-- The polarity table repeated along time reads `pol[p, d]`. -/
theorem polB_apply (pol : FVec Ideal S2x2048 .f32) (t : Fin 64) (p : Fin 2) (d : Fin 2048) :
    polB pol (ix3 t p d) = pol (ix2 p d) := by
  unfold polB
  refine (broadcastInDim_apply _ _ _ (ix3 t p d) (ix3 (0 : Fin 1) p d) fun a => ?_).trans
    (broadcastInDim_apply _ _ pol (ix3 (0 : Fin 1) p d) (ix2 p d) fun a => ?_)
  · match a with
    | ⟨0, _⟩ => rfl
    | ⟨1, _⟩ => rfl
    | ⟨2, _⟩ => rfl
  · match a with
    | ⟨0, _⟩ => rfl
    | ⟨1, _⟩ => rfl

/-- A time table repeated along polarity reads its entry `(t, d)`. -/
theorem timeB_apply (tm : FVec Ideal S64x2048 .f32) (t : Fin 64) (p : Fin 2) (d : Fin 2048) :
    timeB tm (ix3 t p d) = tm (ix2 t d) := by
  unfold timeB
  refine (broadcastInDim_apply _ _ _ (ix3 t p d) (ix3 t (0 : Fin 1) d) fun a => ?_).trans
    (broadcastInDim_apply _ _ tm (ix3 t (0 : Fin 1) d) (ix2 t d) fun a => ?_)
  · match a with
    | ⟨0, _⟩ => rfl
    | ⟨1, _⟩ => rfl
    | ⟨2, _⟩ => rfl
  · match a with
    | ⟨0, _⟩ => rfl
    | ⟨1, _⟩ => rfl

/-! ## The sum over time and polarity -/

/-- The indices of `[64, 2, 2048]` that drop to `d` when the first two axes are removed are the `(t, p, d)`: a sum over
    them is the double sum over `t` and `p`. -/
theorem sum_filter_drop (h : S64x2x2048.ReducesTo [0, 1] S2048) (x : S64x2x2048.Idx → EReal) (d : Fin 2048)
    [DecidablePred fun i : S64x2x2048.Idx => h.drop i = ix1 d] :
    ∑ i ∈ Finset.univ.filter (fun i : S64x2x2048.Idx => h.drop i = ix1 d), x i
      = ∑ t : Fin 64, ∑ p : Fin 2, x (ix3 t p d) := by
  have hdrop : ∀ i : S64x2x2048.Idx, h.drop i = ix1 d ↔ i 2 = d := fun i => by
    have hv : ((h.drop i) 0 : ℕ) = (i 2 : ℕ) := Shape.ReducesTo.drop_apply_val_of_eq h i 0 2
    constructor
    · intro e
      apply Fin.ext
      rw [← hv, e]
    · intro e
      funext b
      obtain rfl : b = 0 := Subsingleton.elim _ _
      apply Fin.ext
      rw [hv, e]
  rw [← Finset.sum_product']
  refine Finset.sum_bij' (fun i _ => ((i 0, i 1) : Fin 64 × Fin 2)) (fun tp _ => ix3 tp.1 tp.2 d) ?_ ?_ ?_ ?_ ?_
  · intro i _
    exact Finset.mem_product.mpr ⟨Finset.mem_univ _, Finset.mem_univ _⟩
  · intro tp _
    exact Finset.mem_filter.mpr ⟨Finset.mem_univ _, (hdrop _).mpr rfl⟩
  · intro i hi
    have h2 := (hdrop i).mp (Finset.mem_filter.mp hi).2
    rw [← h2]
    exact (eq_ix3 i).symm
  · intro tp _
    rfl
  · intro i hi
    have h2 := (hdrop i).mp (Finset.mem_filter.mp hi).2
    rw [← h2]
    exact congrArg x (eq_ix3 i)

end Cert.ReferenceIdeal.RefValue

end
-- ==== Proof.RefValue.lean ====
/-
  The reference's result at coordinate `d` is the sign of the pixels-first sum `refSum`.

  The stages are read one at a time: the sign of the sum over `(t, p)` of `(proj · pol) · time'`, where `proj[t,p,d]`
  is the contraction of the flattened histogram with the position table and `time'` is the time table as the program
  takes it, which is the time table itself. The bracketing of the products and the order of the sums are those of
  `refSum`, so no law of the extended reals is used beyond `0 + x = x` for the sum's initial value.
-/
import proofs.«176864_g4612794876553_cont_8to1_c_351_39_alg».proof.Proof.RefOps
import proofs.«176864_g4612794876553_cont_8to1_c_351_39_alg».proof.Proof.RefIndex
import proofs.«176864_g4612794876553_cont_8to1_c_351_39_alg».proof.Proof.RefStages
import proofs.«176864_g4612794876553_cont_8to1_c_351_39_alg».proof.Proof.Spec

noncomputable section

namespace Cert.ReferenceIdeal.RefValue

open Cert.ReferenceIdeal Idealize.ShloMosaic Idealize.ShloMosaic.ValueIdx
open Cert.ReferenceIdeal.Facts₀
open scoped BigOperators

variable [Cert.ReferenceIdeal.Facts]

/-- The bound term at `(t, p, d)`: `(proj[t,p,d] · pol[p,d]) · time[t,d]`. -/
theorem bound_apply (hist : FVec Ideal S64x2x128x128 .f32) (time : FVec Ideal S64x2048 .f32) (pol : FVec Ideal S2x2048 .f32)
    (pos : FVec Ideal S16384x2048 .f32) (t : Fin 64) (p : Fin 2) (d : Fin 2048) :
    bound hist time pol pos (ix3 t p d) = (proj hist pos (ix3 t p d) * pol (ix2 p d)) * time (ix2 t d) := by
  unfold bound
  rw [mulf_apply, mulf_apply, polB_apply, timeB_apply, timeHv_apply]

/-- The sum over time and polarity at `d`: the double sum of the bound terms, the initial zero dropped. -/
theorem total_apply (hist : FVec Ideal S64x2x128x128 .f32) (time : FVec Ideal S64x2048 .f32) (pol : FVec Ideal S2x2048 .f32)
    (pos : FVec Ideal S16384x2048 .f32) (d : Fin 2048) :
    total hist time pol pos (ix1 d) = ∑ t : Fin 64, ∑ p : Fin 2, bound hist time pol pos (ix3 t p d) := by
  unfold total
  refine (hostReduceAdd_apply _ _ _ _ _).trans ?_
  unfold Ideal.hostReduceAdd
  rw [constant_apply, Ideal.ofBits_zero_f32, zero_add]
  exact sum_filter_drop _ _ d

/-- The reference's result at `d` is the sign of `refSum` at `d`. -/
theorem refOut_apply (hist : FVec Ideal S64x2x128x128 .f32) (time : FVec Ideal S64x2048 .f32) (pol : FVec Ideal S2x2048 .f32)
    (pos : FVec Ideal S16384x2048 .f32) (d : Fin 2048) :
    refOut hist time pol pos (ix1 d) = Ideal.sign (Cert.Spec.refSum hist time pol pos d) := by
  show Ideal.sign (total hist time pol pos (ix1 d)) = _
  rw [total_apply]
  unfold Cert.Spec.refSum
  refine congrArg Ideal.sign (Finset.sum_congr rfl fun t _ => Finset.sum_congr rfl fun p _ => ?_)
  rw [bound_apply, proj_apply]
  refine congrArg (fun s => s * pol (ix2 p d) * time (ix2 t d)) (Finset.sum_congr rfl fun n _ => ?_)
  rw [flat_apply]

end Cert.ReferenceIdeal.RefValue

end
-- ==== Proof.Algebra.lean ====
/-
  The two arrangements of the weighted sum agree on real entries.

  Both `kerSum` and `refSum` are the triple sum over `(t, p, n)` of
  `hist[t, p, n] · pos[n, d] · pol[p, d] · time[t, d]`. The kernel's arrangement runs over the pixels in 16 blocks of
  1024 (`n = b·1024 + r`) and over the 128 merged rows `tp = 2·t + p`; the reference's runs over `t`, `p` and all
  16384 pixels. Two re-indexing lemmas, stated over an arbitrary summand in a commutative monoid, undo the blocking
  and the merging; what is left is distributivity and an exchange of the order of summation, which hold in `ℝ`.
  The extended-real statement follows by reading every entry as the coercion of a real number and pulling the
  coercion out through the products and the finite sums.
-/
import proofs.«176864_g4612794876553_cont_8to1_c_351_39_alg».proof.Proof.Spec
import Mathlib.Algebra.BigOperators.Fin
import Mathlib.Algebra.BigOperators.Ring.Finset
import Mathlib.Data.EReal.Basic
import Mathlib.Tactic.Ring

noncomputable section

open scoped BigOperators

namespace Cert.Spec

open Idealize.ShloMosaic Idealize.ShloMosaic.ValueIdx

/-- A pixel `n` is pixel `n mod 1024` of block `n div 1024`, and conversely. -/
def pixEquiv : Fin 16 × Fin 1024 ≃ Fin 16384 where
  toFun x := pix x.1 x.2
  invFun n := (⟨n.val / 1024, by omega⟩, ⟨n.val % 1024, by omega⟩)
  left_inv := by
    rintro ⟨b, r⟩
    refine Prod.ext (Fin.ext ?_) (Fin.ext ?_)
    · show (b.val * 1024 + r.val) / 1024 = b.val
      omega
    · show (b.val * 1024 + r.val) % 1024 = r.val
      omega
  right_inv := by
    intro n
    refine Fin.ext ?_
    show n.val / 1024 * 1024 + n.val % 1024 = n.val
    omega

/-- A merged row `tp = 2·t + p` is the pair `(t, p) = (tp div 2, tp mod 2)`, and conversely. -/
def rowEquiv : Fin 128 ≃ Fin 64 × Fin 2 where
  toFun tp := (half tp, par tp)
  invFun x := ⟨2 * x.1.val + x.2.val, by omega⟩
  left_inv := by
    intro tp
    refine Fin.ext ?_
    show 2 * (tp.val / 2) + tp.val % 2 = tp.val
    omega
  right_inv := by
    rintro ⟨t, p⟩
    refine Prod.ext (Fin.ext ?_) (Fin.ext ?_)
    · show (2 * t.val + p.val) / 2 = t.val
      omega
    · show (2 * t.val + p.val) % 2 = p.val
      omega

/-- A sum over all pixels, taken block by block. -/
theorem sum_pix {M : Type*} [AddCommMonoid M] (F : Fin 16384 → M) :
    ∑ b : Fin 16, ∑ r : Fin 1024, F (pix b r) = ∑ n : Fin 16384, F n := by
  rw [← Fintype.sum_prod_type' (fun b r => F (pix b r))]
  exact Fintype.sum_equiv pixEquiv _ _ (fun _ => rfl)

/-- A sum over the merged rows is the double sum over time steps and polarities. -/
theorem sum_rows {M : Type*} [AddCommMonoid M] (G : Fin 64 → Fin 2 → M) :
    ∑ tp : Fin 128, G (half tp) (par tp) = ∑ t : Fin 64, ∑ p : Fin 2, G t p := by
  rw [← Fintype.sum_prod_type' G]
  exact Fintype.sum_equiv rowEquiv _ _ (fun _ => rfl)

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity in `ℝ`: blocked pixels and merged rows against the plain triple sum. -/
theorem real_identity (H : Fin 64 → Fin 2 → Fin 16384 → ℝ) (T : Fin 64 → ℝ) (Pl : Fin 2 → ℝ)
    (Ps : Fin 16384 → ℝ) :
    ∑ b : Fin 16, ∑ r : Fin 1024,
        Ps (pix b r) * ∑ tp : Fin 128, H (half tp) (par tp) (pix b r) * (Pl (par tp) * T (half tp))
      = ∑ t : Fin 64, ∑ p : Fin 2, ((∑ n : Fin 16384, H t p n * Ps n) * Pl p) * T t := by
  calc ∑ b : Fin 16, ∑ r : Fin 1024,
          Ps (pix b r) * ∑ tp : Fin 128, H (half tp) (par tp) (pix b r) * (Pl (par tp) * T (half tp))
      = ∑ n : Fin 16384, Ps n * ∑ tp : Fin 128, H (half tp) (par tp) n * (Pl (par tp) * T (half tp)) :=
        sum_pix (fun n => Ps n * ∑ tp : Fin 128, H (half tp) (par tp) n * (Pl (par tp) * T (half tp)))
    _ = ∑ n : Fin 16384, Ps n * ∑ t : Fin 64, ∑ p : Fin 2, H t p n * (Pl p * T t) := by
        refine Finset.sum_congr rfl fun n _ => ?_
        rw [sum_rows (fun t p => H t p n * (Pl p * T t))]
    _ = ∑ n : Fin 16384, ∑ t : Fin 64, ∑ p : Fin 2, Ps n * (H t p n * (Pl p * T t)) := by
        simp only [Finset.mul_sum]
    _ = ∑ t : Fin 64, ∑ n : Fin 16384, ∑ p : Fin 2, Ps n * (H t p n * (Pl p * T t)) := Finset.sum_comm
    _ = ∑ t : Fin 64, ∑ p : Fin 2, ∑ n : Fin 16384, Ps n * (H t p n * (Pl p * T t)) :=
        Finset.sum_congr rfl fun t _ => Finset.sum_comm
    _ = ∑ t : Fin 64, ∑ p : Fin 2, ((∑ n : Fin 16384, H t p n * Ps n) * Pl p) * T t := by
        refine Finset.sum_congr rfl fun t _ => Finset.sum_congr rfl fun p _ => ?_
        rw [Finset.sum_mul, Finset.sum_mul]
        exact Finset.sum_congr rfl fun n _ => by ring

/-- On real entries the kernel's arrangement of the sum equals the reference's. -/
theorem kerSum_eq_refSum (hist : Hist) (time : Time) (pol : Pol) (pos : Pos)
    (h : AllReal hist time pol pos) (d : Fin 2048) :
    kerSum hist time pol pos d = refSum hist time pol pos d := by
  obtain ⟨hH, hT, hPl, hPs⟩ := h
  choose Hr hHr using hH
  choose Tr hTr using hT
  choose Plr hPlr using hPl
  choose Psr hPsr using hPs
  unfold kerSum blockSum refSum bind
  simp only [hHr, hTr, hPlr, hPsr, ← EReal.coe_mul, ← coe_finset_sum]
  exact congrArg _ (real_identity (fun t p n => Hr (ix4 t p (rowOf n) (colOf n)))
    (fun t => Tr (ix2 t d)) (fun p => Plr (ix2 p d)) (fun n => Psr (ix2 n d)))

end Cert.Spec

end
-- ==== Proof.Finite.lean ====
/-
  Finite inputs are real inputs.

  The precondition compares, entry by entry, the absolute value of each of the four arrays with the pattern of
  `+∞` by "less than", takes the conjunction of all the comparison bits of each array, and takes the conjunction of
  the four results. If the outcome is 1 then each of the four conjunctions is 1, hence every comparison bit is 1,
  hence every entry `x` satisfies `max x (−x) < ⊤` in the extended reals. That excludes `x = ⊤` (then `max x (−x) = ⊤`)
  and `x = ⊥` (then `−x = ⊤`), so `x` is the coercion of a real number.
-/
import proofs.«176864_g4612794876553_cont_8to1_c_351_39_alg».proof.Pre_finite_inputs
import proofs.«176864_g4612794876553_cont_8to1_c_351_39_alg».proof.Proof.Spec
import Idealize.ShloMosaic.Lib.ReduceAll

namespace Cert.Proof.Finite

open Idealize.ShloMosaic Cert.Pre_finite_inputs

/-- The shape of rank 0 has exactly one index. -/
instance : Subsingleton S_.Idx := ⟨fun a b => funext fun d => d.elim0⟩

/-- The pattern `0x7F800000` of the 32-bit format denotes `+∞`. -/
theorem inf_bits : Ideal.ofBits .f32 0x7F800000#32 = (⊤ : EReal) := by
  simp [Ideal.ofBits, Ideal.ieee]

/-- An extended real whose absolute value is below `+∞` is a real number. -/
theorem isReal_of_abs_lt (x : EReal)
    (h : Ideal.cmp .olt (max x (-x)) (Ideal.ofBits .f32 0x7F800000#32) = 1#1) : Cert.Spec.IsReal x := by
  rw [inf_bits] at h
  induction x using EReal.rec with
  | bot => simp [Ideal.cmp] at h
  | coe r => exact ⟨r, rfl⟩
  | top => simp [Ideal.cmp] at h

/-- If the precondition evaluates to 1, every entry of the four arrays is a real number. -/
theorem allReal_of_fn [Cert.Pre_finite_inputs.Facts]
    (a0 : FVec Ideal Cert.Pre_finite_inputs.S64x2x128x128 .f32)
    (a1 : FVec Ideal Cert.Pre_finite_inputs.S64x2048 .f32)
    (a2 : FVec Ideal Cert.Pre_finite_inputs.S2x2048 .f32)
    (a3 : FVec Ideal Cert.Pre_finite_inputs.S16384x2048 .f32)
    (h : Cert.Pre_finite_inputs.fn (F := Ideal) a0 a1 a2 a3 = fun _ => 1#1) :
    Cert.Spec.AllReal a0 a1 a2 a3 := by
  have h0 := congrFun h ValueIdx.ix0
  dsimp only [fn, fn_part1] at h0
  -- the outcome is the conjunction of four bits, one per array
  change IntOp.andi (IntOp.andi (IntOp.andi _ _) _) _ = 1#1 at h0
  obtain ⟨h012, e3⟩ := IntOp.andi_eq_one.1 h0
  obtain ⟨h01, e2⟩ := IntOp.andi_eq_one.1 h012
  obtain ⟨e0, e1⟩ := IntOp.andi_eq_one.1 h01
  -- each bit is a conjunction over all entries of one array
  exact ⟨fun i => isReal_of_abs_lt (a0 i) (Host.reduce_andi_all _ _ _ _ _ e0 i),
    fun i => isReal_of_abs_lt (a1 i) (Host.reduce_andi_all _ _ _ _ _ e1 i),
    fun i => isReal_of_abs_lt (a2 i) (Host.reduce_andi_all _ _ _ _ _ e2 i),
    fun i => isReal_of_abs_lt (a3 i) (Host.reduce_andi_all _ _ _ _ _ e3 i)⟩

end Cert.Proof.Finite
-- ==== Proof.lean ====
/-
  The certificate's claim, assembled.

  The kernel and its reference both compute, for each of 2048 coordinates `d`, the sign of the weighted sum

      ∑ over (t, p, n) of  hist[t, p, n] · pos[n, d] · pol[p, d] · time[t, d]

  of bound hypervectors (Spec). The reference contracts the pixels `n` first, in one matrix product, then weights by
  polarity and time and sums over `(t, p)`. The kernel binds polarity with time once into a table over the 128 merged
  rows `2t + p`, and then, block of 1024 pixels by block, contracts the histogram with that table, weights by the position
  table, sums over the block's pixels and adds the 16 block sums up in a table it carries across its grid; after the
  last block it takes the sign.

  Three frames: each program runs to the end on every weakly fair schedule, faults nowhere and leaves its arguments as
  they were. One conjunct for the idealization's single rewrite, the sign written as a copy of the sign bit onto 1.0.
  And the equality of results at the ideal instance: on finite inputs every entry is a real number (Finite), the kernel's
  result at `d` is the sign of the block-by-block sum (ChainValue over KernelRun), the reference's is the sign of the
  pixels-first sum (RefValue over RefRun), and the two sums are two arrangements of one finite sum of reals (Algebra).
-/
import proofs.«176864_g4612794876553_cont_8to1_c_351_39_alg».proof.Defs
import proofs.«176864_g4612794876553_cont_8to1_c_351_39_alg».proof.Proof.Gen.Kernel
import proofs.«176864_g4612794876553_cont_8to1_c_351_39_alg».proof.Proof.Gen.Kernel.Skeleton
import proofs.«176864_g4612794876553_cont_8to1_c_351_39_alg».proof.Proof.Gen.Kernel.Launch
import proofs.«176864_g4612794876553_cont_8to1_c_351_39_alg».proof.Proof.Gen.Kernel.Points
import proofs.«176864_g4612794876553_cont_8to1_c_351_39_alg».proof.Proof.Gen.Kernel.Frame
import proofs.«176864_g4612794876553_cont_8to1_c_351_39_alg».proof.Proof.Gen.KernelIdeal
import proofs.«176864_g4612794876553_cont_8to1_c_351_39_alg».proof.Proof.Gen.KernelIdeal.Skeleton
import proofs.«176864_g4612794876553_cont_8to1_c_351_39_alg».proof.Proof.Gen.KernelIdeal.Launch
import proofs.«176864_g4612794876553_cont_8to1_c_351_39_alg».proof.Proof.Gen.KernelIdeal.Points
import proofs.«176864_g4612794876553_cont_8to1_c_351_39_alg».proof.Proof.Gen.KernelIdeal.Frame
import proofs.«176864_g4612794876553_cont_8to1_c_351_39_alg».proof.Proof.Gen.ReferenceIdeal
import proofs.«176864_g4612794876553_cont_8to1_c_351_39_alg».proof.Proof.Gen.Pre_finite_inputs
import proofs.«176864_g4612794876553_cont_8to1_c_351_39_alg».proof.Proof.KernelRun
import proofs.«176864_g4612794876553_cont_8to1_c_351_39_alg».proof.Proof.ChainValue
import proofs.«176864_g4612794876553_cont_8to1_c_351_39_alg».proof.Proof.RefRun
import proofs.«176864_g4612794876553_cont_8to1_c_351_39_alg».proof.Proof.RefValue
import proofs.«176864_g4612794876553_cont_8to1_c_351_39_alg».proof.Proof.Algebra
import proofs.«176864_g4612794876553_cont_8to1_c_351_39_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs, faults nowhere and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.RefValue.run m ρ)

/-- The one rewrite of the idealization: 1.0 carrying the sign bit of `x` is `-1` where `x < 0` and `1` elsewhere. -/
theorem preserves : Cert.preserves_Kernel_KernelIdeal := IdealRules.sign_bit.statement Cert.KernelIdeal.S1x2048 .f32

/-- On finite inputs both programs end with, at every coordinate `d`, the sign of the same real number: the kernel's
    block-by-block sum and the reference's pixels-first sum are two arrangements of one finite sum of reals. -/
theorem algebraic : Cert.algebraic_KernelIdeal_ReferenceIdeal := by
  intro m ρ m' ρ' hpre hagree
  refine ⟨fun c => Cert.KernelIdeal.KernelRun.kerOut (F := Ideal) m c, Cert.KernelIdeal.KernelRun.run (F := Ideal) m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2]
  funext j
  obtain ⟨d, rfl⟩ : ∃ d : Fin 2048, j = ix1 d := ⟨j 0, eq_ix1 j⟩
  show Cert.ReferenceIdeal.RefValue.refOut _ _ _ _ (ix1 d) = Cert.KernelIdeal.KernelRun.kerOut m c (ix1 d)
  rw [Cert.ReferenceIdeal.RefValue.refOut_apply, Cert.KernelIdeal.KernelRun.kerOut_apply, Cert.KernelIdeal.ChainValue.result_apply]
  exact congrArg Ideal.sign (Cert.Spec.kerSum_eq_refSum _ _ _ _ (Cert.Proof.Finite.allReal_of_fn _ _ _ _ (hpre c)) d).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
